-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S128 : Shape := ⟨1, ![128]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x512 .f32) (main_arg9 : FVec F S256 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S512 .f32) (main_arg6 : FVec F S1x512 .f32) (main_arg7 : FVec F S1x512 .f32) (main_arg8 : FVec F S256x512 .f32) (main_arg9 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg6
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg7
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg8 main_arg9 main_v33

def fn {F : FTy → Type} [FloatOps F] (main_arg0 : FVec F S262144x256 .f32) (main_arg1 : IVec S128 32) (main_arg2 : FVec F S1x256 .f32) (main_arg3 : FVec F S1x256 .f32) (main_arg4 : FVec F S512x256 .f32) (main_arg5 : FVec F S512 .f32) (main_arg6 : FVec F S1x512 .f32) (main_arg7 : FVec F S1x512 .f32) (main_arg8 : FVec F S256x512 .f32) (main_arg9 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_v13 main_v16
-- ==== Kernel.lean ====
abbrev S262144x256 : Shape := ⟨2, ![262144, 256]⟩
abbrev S128 : Shape := ⟨1, ![128]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S256 : Shape := ⟨1, ![256]⟩
abbrev S2048x256 : Shape := ⟨2, ![2048, 256]⟩
abbrev S2048 : Shape := ⟨1, ![2048]⟩
abbrev S2048x1 : Shape := ⟨2, ![2048, 1]⟩
abbrev S2048x512 : Shape := ⟨2, ![2048, 512]⟩

abbrev nBuf : Space → Nat
  | .hbm => 17
  | .vmem => 12
  | .smem => 0
  | _ => 0

abbrev bufTy : (tb : Table) → Fin (tcTables nBuf tb) → BufTy
  | .hbm, ⟨0, _⟩ => ⟨S262144x256, .f32⟩
  | .hbm, ⟨1, _⟩ => ⟨S128, .i32⟩
  | .hbm, ⟨2, _⟩ => ⟨S1x256, .f32⟩
  | .hbm, ⟨3, _⟩ => ⟨S1x256, .f32⟩
  | .hbm, ⟨4, _⟩ => ⟨S512x256, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S256x512, .f32⟩
  | .hbm, ⟨9, _⟩ => ⟨S256, .f32⟩
  | .hbm, ⟨10, _⟩ => ⟨S256x512, .f32⟩
  | .hbm, ⟨11, _⟩ => ⟨S256x512, .bf16⟩
  | .hbm, ⟨12, _⟩ => ⟨S512x256, .f32⟩
  | .hbm, ⟨13, _⟩ => ⟨S512x256, .bf16⟩
  | .hbm, ⟨14, _⟩ => ⟨S1x512, .f32⟩
  | .hbm, ⟨15, _⟩ => ⟨S1x256, .f32⟩
  | .hbm, ⟨16, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S1x256, .f32⟩
  | .local _ .vmem, ⟨4, _⟩ => ⟨S256x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S512x256_S256x512_1_0 : S512x256.Transposes [1, 0] S256x512
  bitsLt_bf16_f32 : FTy.bits .bf16 < FTy.bits .f32
  transposes_S256x512_S512x256_1_0 : S256x512.Transposes [1, 0] S512x256
  shapeCasts_S512_S1x512 : S512.ShapeCasts S1x512
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  broadcasts_S2048x1_S2048x512 : S2048x1.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1x256_S1x256 : S1x256.ShapeCasts S1x256
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S262144x256.size a
  hwx0_9 : ∀ i : grid0.Coords, EltTy.bits .f32 = 32 ∨ (Rect.block (s := S262144x256) S2048x256.size (cc0_transform_9 i) (hinb0_9 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x256 : Shape := ⟨2, ![262144, 256]⟩
abbrev S128 : Shape := ⟨1, ![128]⟩
abbrev S1x256 : Shape := ⟨2, ![1, 256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S256 : Shape := ⟨1, ![256]⟩
abbrev S_ : Shape := ⟨0, ![]⟩
abbrev S262144 : Shape := ⟨1, ![262144]⟩
abbrev S262144x1 : Shape := ⟨2, ![262144, 1]⟩
abbrev S262144x512 : Shape := ⟨2, ![262144, 512]⟩

abbrev nBuf : Space → Nat
  | .hbm => 91
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S128, .i32⟩
  | .hbm, ⟨2, _⟩ => ⟨S1x256, .f32⟩
  | .hbm, ⟨3, _⟩ => ⟨S1x256, .f32⟩
  | .hbm, ⟨4, _⟩ => ⟨S512x256, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S256x512, .f32⟩
  | .hbm, ⟨9, _⟩ => ⟨S256, .f32⟩
  | .hbm, ⟨10, _⟩ => ⟨S_, .f32⟩
  | .hbm, ⟨11, _⟩ => ⟨S262144, .f32⟩
  | .hbm, ⟨12, _⟩ => ⟨S262144x1, .f32⟩
  | .hbm, ⟨13, _⟩ => ⟨S_, .f32⟩
  | .hbm, ⟨14, _⟩ => ⟨S262144x1, .f32⟩
  | .hbm, ⟨15, _⟩ => ⟨S262144x1, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144, .f32⟩
  | .hbm, ⟨21, _⟩ => ⟨S262144x1, .f32⟩
  | .hbm, ⟨22, _⟩ => ⟨S_, .f32⟩
  | .hbm, ⟨23, _⟩ => ⟨S262144x1, .f32⟩
  | .hbm, ⟨24, _⟩ => ⟨S262144x1, .f32⟩
  | .hbm, ⟨25, _⟩ => ⟨S262144x256, .f32⟩
  | .hbm, ⟨26, _⟩ => ⟨S262144x256, .f32⟩
  | .hbm, ⟨27, _⟩ => ⟨S_, .f32⟩
  | .hbm, ⟨28, _⟩ => ⟨S262144x1, .f32⟩
  | .hbm, ⟨29, _⟩ => ⟨S262144x1, .f32⟩
  | .hbm, ⟨30, _⟩ => ⟨S262144x1, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S_, .f32⟩
  | .hbm, ⟨38, _⟩ => ⟨S_, .f32⟩
  | .hbm, ⟨39, _⟩ => ⟨S262144x256, .f32⟩
  | .hbm, ⟨40, _⟩ => ⟨S262144x256, .i1⟩
  | .hbm, ⟨41, _⟩ => ⟨S_, .f32⟩
  | .hbm, ⟨42, _⟩ => ⟨S262144x256, .f32⟩
  | .hbm, ⟨43, _⟩ => ⟨S262144x256, .f32⟩
  | .hbm, ⟨44, _⟩ => ⟨S262144x256, .f32⟩
  | .hbm, ⟨45, _⟩ => ⟨S256x512, .f32⟩
  | .hbm, ⟨46, _⟩ => ⟨S262144x512, .f32⟩
  | .hbm, ⟨47, _⟩ => ⟨S1x512, .f32⟩
  | .hbm, ⟨48, _⟩ => ⟨S262144x512, .f32⟩
  | .hbm, ⟨49, _⟩ => ⟨S262144x512, .f32⟩
  | .hbm, ⟨50, _⟩ => ⟨S_, .f32⟩
  | .hbm, ⟨51, _⟩ => ⟨S262144, .f32⟩
  | .hbm, ⟨52, _⟩ => ⟨S262144x1, .f32⟩
  | .hbm, ⟨53, _⟩ => ⟨S_, .f32⟩
  | .hbm, ⟨54, _⟩ => ⟨S262144x1, .f32⟩
  | .hbm, ⟨55, _⟩ => ⟨S262144x1, .f32⟩
  | .hbm, ⟨56, _⟩ => ⟨S262144x512, .f32⟩
  | .hbm, ⟨57, _⟩ => ⟨S262144x512, .f32⟩
  | .hbm, ⟨58, _⟩ => ⟨S262144x512, .f32⟩
  | .hbm, ⟨59, _⟩ => ⟨S_, .f32⟩
  | .hbm, ⟨60, _⟩ => ⟨S262144, .f32⟩
  | .hbm, ⟨61, _⟩ => ⟨S262144x1, .f32⟩
  | .hbm, ⟨62, _⟩ => ⟨S_, .f32⟩
  | .hbm, ⟨63, _⟩ => ⟨S262144x1, .f32⟩
  | .hbm, ⟨64, _⟩ => ⟨S262144x1, .f32⟩
  | .hbm, ⟨65, _⟩ => ⟨S262144x512, .f32⟩
  | .hbm, ⟨66, _⟩ => ⟨S262144x512, .f32⟩
  | .hbm, ⟨67, _⟩ => ⟨S_, .f32⟩
  | .hbm, ⟨68, _⟩ => ⟨S262144x1, .f32⟩
  | .hbm, ⟨69, _⟩ => ⟨S262144x1, .f32⟩
  | .hbm, ⟨70, _⟩ => ⟨S262144x1, .f32⟩
  | .hbm, ⟨71, _⟩ => ⟨S262144x512, .f32⟩
  | .hbm, ⟨72, _⟩ => ⟨S262144x512, .f32⟩
  | .hbm, ⟨73, _⟩ => ⟨S262144x512, .f32⟩
  | .hbm, ⟨74, _⟩ => ⟨S262144x512, .f32⟩
  | .hbm, ⟨75, _⟩ => ⟨S262144x512, .f32⟩
  | .hbm, ⟨76, _⟩ => ⟨S262144x512, .f32⟩
  | .hbm, ⟨77, _⟩ => ⟨S_, .f32⟩
  | .hbm, ⟨78, _⟩ => ⟨S_, .f32⟩
  | .hbm, ⟨79, _⟩ => ⟨S262144x512, .f32⟩
  | .hbm, ⟨80, _⟩ => ⟨S262144x512, .i1⟩
  | .hbm, ⟨81, _⟩ => ⟨S_, .f32⟩
  | .hbm, ⟨82, _⟩ => ⟨S262144x512, .f32⟩
  | .hbm, ⟨83, _⟩ => ⟨S262144x512, .f32⟩
  | .hbm, ⟨84, _⟩ => ⟨S262144x512, .f32⟩
  | .hbm, ⟨85, _⟩ => ⟨S512x256, .f32⟩
  | .hbm, ⟨86, _⟩ => ⟨S262144x256, .f32⟩
  | .hbm, ⟨87, _⟩ => ⟨S1x256, .f32⟩
  | .hbm, ⟨88, _⟩ => ⟨S262144x256, .f32⟩
  | .hbm, ⟨89, _⟩ => ⟨S262144x256, .f32⟩
  | .hbm, ⟨90, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S512x256_S256x512_1_0 : S512x256.Transposes [1, 0] S256x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  reducesTo_S262144x512_S262144_d1 : S262144x512.ReducesTo [1] S262144
  bcast_S262144x1_S262144x512_0_1 : S262144x1.BroadcastsInDim S262144x512 (![0, 1] : Fin 2 → Fin S262144x512.rank)
  bcast_S_S262144x512 : S_.BroadcastsInDim S262144x512 (![] : Fin 0 → Fin S262144x512.rank)
  transposes_S256x512_S512x256_1_0 : S256x512.Transposes [1, 0] S512x256
  bcast_S256_S1x256_1 : S256.BroadcastsInDim S1x256 (![1] : Fin 1 → Fin S1x256.rank)
  dot_S262144x256_S256x512_S262144x512_1_0_0_1_n_n_wf : DotDims.WF S262144x256 S256x512 S262144x512 [1] [0] [0] [1] [] []
  dot_S262144x512_S512x256_S262144x256_1_0_0_1_n_n_wf : DotDims.WF S262144x512 S512x256 S262144x256 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf

class Facts : Prop extends Facts₀ where

variable [Facts]
-- ==== Proof.RowMath.lean ====
import Idealize.ShloMosaic.PureOps.Ideal
import Idealize.ShloMosaic.PureOps.Ideal.Laws
noncomputable section
namespace Cert.RowNet
open Idealize.ShloMosaic

/-- the leaky rectifier: the identity on the nonnegative half line, the slope below it -/
def leaky (s v : EReal) : EReal := if (0 : EReal) ≤ v then v else s * v

section
variable {ι κ : Type} [Fintype ι] [Fintype κ]

/-- layer norm, variance as the mean of squared deviations, then the quotient by its square root -/
def lnTwoPass (c e : EReal) (a w b : ι → EReal) (k : ι) : EReal :=
  Ideal.div (a k - Ideal.div (∑ i, a i) c)
    (Ideal.sqrt (Ideal.div (∑ i, (a i - Ideal.div (∑ i, a i) c) * (a i - Ideal.div (∑ i, a i) c)) c + e)) * w k + b k

/-- layer norm, variance as mean of squares minus squared mean, then the product with the reciprocal square root -/
def lnOnePass (c e : EReal) (a w b : ι → EReal) (k : ι) : EReal :=
  (a k - Ideal.div (∑ i, a i) c)
    * Ideal.rsqrt (Ideal.div (∑ i, a i * a i) c - Ideal.div (∑ i, a i) c * Ideal.div (∑ i, a i) c + e) * w k + b k

/-- an affine layer: row times matrix plus bias -/
def lin (h : ι → EReal) (W : κ → ι → EReal) (bias : κ → EReal) (n : κ) : EReal := (∑ k, h k * W n k) + bias n

def netTwoPass (c1 c2 e s : EReal) (a w1 b1 : ι → EReal) (We : κ → ι → EReal) (be w2 b2 : κ → EReal)
    (Ws : ι → κ → EReal) (bs : ι → EReal) (j : ι) : EReal :=
  lin (fun n => leaky s (lnTwoPass c2 e (lin (fun k => leaky s (lnTwoPass c1 e a w1 b1 k)) We be) w2 b2 n)) Ws bs j + a j

def netOnePass (c1 c2 e s : EReal) (a w1 b1 : ι → EReal) (We : κ → ι → EReal) (be w2 b2 : κ → EReal)
    (Ws : ι → κ → EReal) (bs : ι → EReal) (j : ι) : EReal :=
  lin (fun n => leaky s (lnOnePass c2 e (lin (fun k => leaky s (lnOnePass c1 e a w1 b1 k)) We be) w2 b2 n)) Ws bs j + a j

/-- "x is a real number" -/
def IsReal (x : EReal) : Prop := ∃ r : ℝ, x = (r : EReal)

/-! ### Real numbers inside the extended reals -/

theorem isReal_coe (r : ℝ) : IsReal (r : EReal) := ⟨r, rfl⟩

theorem isReal_add {x y : EReal} (hx : IsReal x) (hy : IsReal y) : IsReal (x + y) := by
  obtain ⟨p, rfl⟩ := hx
  obtain ⟨q, rfl⟩ := hy
  exact ⟨p + q, (EReal.coe_add p q).symm⟩

theorem isReal_mul {x y : EReal} (hx : IsReal x) (hy : IsReal y) : IsReal (x * y) := by
  obtain ⟨p, rfl⟩ := hx
  obtain ⟨q, rfl⟩ := hy
  exact ⟨p * q, (EReal.coe_mul p q).symm⟩

/-- a finite sum of reals, taken in the extended reals, is the real sum -/
theorem coe_sum (s : Finset ι) (f : ι → ℝ) :
    ∑ i ∈ s, ((f i : ℝ) : EReal) = ((∑ i ∈ s, f i : ℝ) : EReal) := by
  classical
  refine Finset.induction_on s ?_ ?_
  · simp
  · intro x t hx ih
    rw [Finset.sum_insert hx, Finset.sum_insert hx, ih, EReal.coe_add]

theorem isReal_sum (s : Finset ι) (f : ι → EReal) (hf : ∀ i, IsReal (f i)) : IsReal (∑ i ∈ s, f i) := by
  choose g hg using hf
  have hfg : f = fun i => (g i : EReal) := funext hg
  subst hfg
  exact ⟨_, coe_sum s g⟩

theorem isReal_leaky {s v : EReal} (hs : IsReal s) (hv : IsReal v) : IsReal (leaky s v) := by
  unfold leaky
  split_ifs
  · exact hv
  · exact isReal_mul hs hv

theorem isReal_lin (h : ι → EReal) (W : κ → ι → EReal) (bias : κ → EReal)
    (hh : ∀ k, IsReal (h k)) (hW : ∀ n k, IsReal (W n k)) (hb : ∀ n, IsReal (bias n)) (n : κ) :
    IsReal (lin h W bias n) :=
  isReal_add (isReal_sum _ _ fun k => isReal_mul (hh k) (hW n k)) (hb n)

/-! ### Mean and variance of a real row -/

/-- the mean of a real row -/
def mean (r : ι → ℝ) : ℝ := (∑ i, r i) * (1 / (Fintype.card ι : ℝ))

/-- the variance of a real row: the mean of the squared deviations -/
def var (r : ι → ℝ) : ℝ := (∑ i, (r i - mean r) * (r i - mean r)) * (1 / (Fintype.card ι : ℝ))

theorem card_ne_zero [Nonempty ι] : (Fintype.card ι : ℝ) ≠ 0 := by
  have h : 0 < Fintype.card ι := Fintype.card_pos
  exact_mod_cast h.ne'

theorem var_nonneg (r : ι → ℝ) : 0 ≤ var r :=
  mul_nonneg (Finset.sum_nonneg fun i _ => mul_self_nonneg _) (by positivity)

/-- the mean of the squares minus the squared mean is the variance: expand the square and use
    that the row sums to its length times its mean -/
theorem meanSq_sub_sqMean [Nonempty ι] (r : ι → ℝ) :
    (∑ i, r i * r i) * (1 / (Fintype.card ι : ℝ)) - mean r * mean r = var r := by
  have hn : (Fintype.card ι : ℝ) ≠ 0 := card_ne_zero
  have hS : ∑ i, r i = (Fintype.card ι : ℝ) * mean r := by
    unfold mean; field_simp
  have hexp : ∀ i, (r i - mean r) * (r i - mean r) = r i * r i - 2 * mean r * r i + mean r * mean r :=
    fun i => by ring
  unfold var
  simp only [hexp, Finset.sum_add_distrib, Finset.sum_sub_distrib, ← Finset.mul_sum, Finset.sum_const,
    Finset.card_univ, nsmul_eq_mul, hS]
  field_simp
  ring

/-- the quotient of a real row's sum by the row's length -/
theorem div_sum_coe [Nonempty ι] (f : ι → ℝ) :
    Ideal.div (∑ i, (f i : EReal)) ((Fintype.card ι : ℝ) : EReal)
      = (((∑ i, f i) * (1 / (Fintype.card ι : ℝ)) : ℝ) : EReal) := by
  rw [coe_sum, Ideal.div_coe card_ne_zero, ← EReal.coe_mul]

/-- the two-pass layer norm of a real row, in closed form -/
theorem lnTwoPass_coe [Nonempty ι] (ε : ℝ) (hε : 0 < ε) (r : ι → ℝ) (w b : ι → EReal) (k : ι) :
    lnTwoPass ((Fintype.card ι : ℝ) : EReal) (ε : EReal) (fun i => (r i : EReal)) w b k
      = ((r k - mean r : ℝ) : EReal) * (((Real.sqrt (var r + ε))⁻¹ : ℝ) : EReal) * w k + b k := by
  have hv : 0 < var r + ε := add_pos_of_nonneg_of_pos (var_nonneg r) hε
  have hm : Ideal.div (∑ i, (r i : EReal)) ((Fintype.card ι : ℝ) : EReal) = (mean r : EReal) :=
    div_sum_coe r
  unfold lnTwoPass
  simp only [hm, ← EReal.coe_sub, ← EReal.coe_mul]
  rw [div_sum_coe (fun i => (r i - mean r) * (r i - mean r))]
  change Ideal.div _ (Ideal.sqrt ((var r : EReal) + (ε : EReal))) * w k + b k = _
  rw [← EReal.coe_add, Ideal.sqrt_coe, if_neg (not_lt.mpr hv.le),
    Ideal.div_coe (Real.sqrt_pos.mpr hv).ne', one_div, EReal.coe_mul]

/-- the one-pass layer norm of a real row has the same closed form -/
theorem lnOnePass_coe [Nonempty ι] (ε : ℝ) (hε : 0 < ε) (r : ι → ℝ) (w b : ι → EReal) (k : ι) :
    lnOnePass ((Fintype.card ι : ℝ) : EReal) (ε : EReal) (fun i => (r i : EReal)) w b k
      = ((r k - mean r : ℝ) : EReal) * (((Real.sqrt (var r + ε))⁻¹ : ℝ) : EReal) * w k + b k := by
  have hv : 0 < var r + ε := add_pos_of_nonneg_of_pos (var_nonneg r) hε
  have hm : Ideal.div (∑ i, (r i : EReal)) ((Fintype.card ι : ℝ) : EReal) = (mean r : EReal) :=
    div_sum_coe r
  unfold lnOnePass
  simp only [hm, ← EReal.coe_sub, ← EReal.coe_mul]
  rw [div_sum_coe (fun i => r i * r i), ← EReal.coe_sub, meanSq_sub_sqMean r, ← EReal.coe_add,
    Ideal.rsqrt_coe, if_neg (not_lt.mpr hv.le), if_neg hv.ne', EReal.coe_mul]

theorem lnOnePass_eq_lnTwoPass [Nonempty ι] (c e : EReal) (hc : c = ((Fintype.card ι : ℝ) : EReal)) (he : ∃ r : ℝ, 0 < r ∧ e = (r : EReal))
    (a w b : ι → EReal) (ha : ∀ i, IsReal (a i)) (k : ι) : lnOnePass c e a w b k = lnTwoPass c e a w b k := by
  obtain ⟨ε, hε, rfl⟩ := he
  subst hc
  choose r hr using ha
  have har : a = fun i => (r i : EReal) := funext hr
  subst har
  rw [lnOnePass_coe ε hε r w b k, lnTwoPass_coe ε hε r w b k]

/-- the layer norm of a real row with real scale and shift is real -/
theorem isReal_lnTwoPass [Nonempty ι] (c e : EReal) (hc : c = ((Fintype.card ι : ℝ) : EReal))
    (he : ∃ r : ℝ, 0 < r ∧ e = (r : EReal)) (a w b : ι → EReal) (ha : ∀ i, IsReal (a i))
    (hw : ∀ i, IsReal (w i)) (hb : ∀ i, IsReal (b i)) (k : ι) : IsReal (lnTwoPass c e a w b k) := by
  obtain ⟨ε, hε, rfl⟩ := he
  subst hc
  choose r hr using ha
  have har : a = fun i => (r i : EReal) := funext hr
  subst har
  rw [lnTwoPass_coe ε hε r w b k]
  exact isReal_add (isReal_mul (isReal_mul (isReal_coe _) (isReal_coe _)) (hw k)) (hb k)

theorem netOnePass_eq_netTwoPass [Nonempty ι] [Nonempty κ] (c1 c2 e s : EReal)
    (hc1 : c1 = ((Fintype.card ι : ℝ) : EReal)) (hc2 : c2 = ((Fintype.card κ : ℝ) : EReal))
    (he : ∃ r : ℝ, 0 < r ∧ e = (r : EReal)) (hs : IsReal s)
    (a w1 b1 : ι → EReal) (We : κ → ι → EReal) (be w2 b2 : κ → EReal) (Ws : ι → κ → EReal) (bs : ι → EReal)
    (ha : ∀ i, IsReal (a i)) (hw1 : ∀ i, IsReal (w1 i)) (hb1 : ∀ i, IsReal (b1 i)) (hWe : ∀ n i, IsReal (We n i)) (hbe : ∀ n, IsReal (be n))
    (j : ι) : netOnePass c1 c2 e s a w1 b1 We be w2 b2 Ws bs j = netTwoPass c1 c2 e s a w1 b1 We be w2 b2 Ws bs j := by
  have h1 : (fun k => leaky s (lnOnePass c1 e a w1 b1 k)) = fun k => leaky s (lnTwoPass c1 e a w1 b1 k) :=
    funext fun k => by rw [lnOnePass_eq_lnTwoPass c1 e hc1 he a w1 b1 ha k]
  have hreal : ∀ n, IsReal (lin (fun k => leaky s (lnTwoPass c1 e a w1 b1 k)) We be n) := fun n =>
    isReal_lin _ We be (fun k => isReal_leaky hs (isReal_lnTwoPass c1 e hc1 he a w1 b1 ha hw1 hb1 k)) hWe hbe n
  have h2 : (fun n => leaky s (lnOnePass c2 e (lin (fun k => leaky s (lnTwoPass c1 e a w1 b1 k)) We be) w2 b2 n))
      = fun n => leaky s (lnTwoPass c2 e (lin (fun k => leaky s (lnTwoPass c1 e a w1 b1 k)) We be) w2 b2 n) :=
    funext fun n => by rw [lnOnePass_eq_lnTwoPass c2 e hc2 he _ w2 b2 hreal n]
  unfold netOnePass netTwoPass
  rw [h1, h2]
end

/-! ### The four float literals, as reals -/

theorem ofBits_256 : Ideal.ofBits .f32 0x43800000#32 = ((256 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_eps : ∃ r : ℝ, 0 < r ∧ Ideal.ofBits .f32 0x3727C5AC#32 = (r : EReal) := by
  refine ⟨((2 ^ 23 + 2606508 : ℕ) : ℝ) * (2 : ℝ) ^ ((110 : ℤ) - 127 - 23), by positivity, ?_⟩
  simp [Ideal.ofBits, Ideal.ieee, -EReal.coe_mul]

theorem ofBits_slope : IsReal (Ideal.ofBits .f32 0x3C23D70A#32) := by
  refine ⟨((2 ^ 23 + 2348810 : ℕ) : ℝ) * (2 : ℝ) ^ ((120 : ℤ) - 127 - 23), ?_⟩
  simp [Ideal.ofBits, Ideal.ieee, -EReal.coe_mul]
end Cert.RowNet
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KerRow.lean ====
/-
  The kernel body's arithmetic at one index of the output block.

  The body reads a block of 2048 rows of the input, normalizes every row (mean, mean of squares minus squared
  mean, product with the reciprocal square root), applies the leaky ReLU, multiplies by the 256 × 512 weight block
  and adds a bias row; then does the same at width 512 with the 512 × 256 weight block, and adds the input block
  back. Entry `(p, q)` of the result therefore depends on row `p` of the input block alone: it is the one-pass row
  network of that row.
-/
import proofs.«114084_j39616778338828_2_alg».proof.Proof.Gen.KernelIdeal.Skeleton
import proofs.«114084_j39616778338828_2_alg».proof.Proof.RowMath
import proofs.«114084_j39616778338828_2_alg».proof.Proof.LibRowOps
import proofs.«114084_j39616778338828_2_alg».proof.Proof.LibColumn

noncomputable section

namespace Cert.KernelIdeal.KerRow

open Cert.KernelIdeal Cert.KernelIdeal.Gen Idealize.ShloMosaic Idealize.ShloMosaic.ValueIdx Cert.RowNet Cert.LibRowOps Cert.LibColumn

/-- The reciprocal square root of a vector, at an index. -/
theorem rsqrt_apply {s : Shape} {φ : FTy} (v : FVec Ideal s φ) (i : s.Idx) : rsqrt v i = Ideal.rsqrt (v i) := rfl

/-- The first matrix product into a zero accumulator: at `(p, n)` the sum over `k` of `l (p, k) * r (k, n)`. -/
theorem matmul_expand (l : FVec Ideal S2048x256 .bf16) (r : FVec Ideal S256x512 .bf16) (p : Fin 2048) (n : Fin 512) :
    matmul dot_S2048x256_S256x512_S2048x512_1_0_0_1_n_n none l r (constant S2048x512 .f32 0x00000000#32) (ix2 p n)
      = ∑ k : Fin 256, l (ix2 p k) * r (ix2 k n) :=
  (Ideal.matmul_constant_zero_apply _ none l r (ix2 p n)).trans
    (sum_contr dot_S2048x256_S256x512_S2048x512_1_0_0_1_n_n rfl rfl (fun _ _ => rfl) (fun _ _ => rfl) (fun _ _ => rfl) (fun _ _ => rfl) l r p n)

/-- The second matrix product into a zero accumulator. -/
theorem matmul_shrink (l : FVec Ideal S2048x512 .bf16) (r : FVec Ideal S512x256 .bf16) (p : Fin 2048) (q : Fin 256) :
    matmul dot_S2048x512_S512x256_S2048x256_1_0_0_1_n_n none l r (constant S2048x256 .f32 0x00000000#32) (ix2 p q)
      = ∑ n : Fin 512, l (ix2 p n) * r (ix2 n q) :=
  (Ideal.matmul_constant_zero_apply _ none l r (ix2 p q)).trans
    (sum_contr dot_S2048x512_S512x256_S2048x256_1_0_0_1_n_n rfl rfl (fun _ _ => rfl) (fun _ _ => rfl) (fun _ _ => rfl) (fun _ _ => rfl) l r p q)

/-- The lane sum of a 2048 × 256 block at row `p`. -/
theorem rowsum256 (v : FVec Ideal S2048x256 .f32) (p : Fin 2048) :
    multiReduction .add [1] S2048 v 0x00000000#32 reduces_S2048x256_S2048 (.inl rfl) rfl (ix1 p) = ∑ k : Fin 256, v (ix2 p k) :=
  multiReduction_row_apply v _ _ _ _ p

/-- The lane sum of a 2048 × 512 block at row `p`. -/
theorem rowsum512 (v : FVec Ideal S2048x512 .f32) (p : Fin 2048) :
    multiReduction .add [1] S2048 v 0x00000000#32 reduces_S2048x512_S2048 (.inl rfl) rfl (ix1 p) = ∑ n : Fin 512, v (ix2 p n) :=
  multiReduction_row_apply v _ _ _ _ p

/-- The first half of the body at `(p, n)`: the linear layer of the normalized, rectified row `p`. -/
theorem pay2_apply (x0 : FVec Ideal S2048x256 .f32) (x1 x2 : FVec Ideal S1x256 .f32) (x3 : FVec Ideal S256x512 .bf16)
    (x4 : FVec Ideal S1x512 .f32) (p : Fin 2048) (n : Fin 512) :
    k0_pay2 (F := Ideal) x0 x1 x2 x3 x4 (ix2 p n)
      = lin (fun k : Fin 256 => leaky (Ideal.ofBits .f32 0x3C23D70A#32)
            (lnOnePass (Ideal.ofBits .f32 0x43800000#32) (Ideal.ofBits .f32 0x3727C5AC#32) (fun i : Fin 256 => x0 (ix2 p i))
              (fun i : Fin 256 => x1 (ix2 (0 : Fin 1) i)) (fun i : Fin 256 => x2 (ix2 (0 : Fin 1) i)) k))
          (fun (n : Fin 512) (k : Fin 256) => x3 (ix2 k n)) (fun n : Fin 512 => x4 (ix2 (0 : Fin 1) n)) n := by
  unfold k0_pay2
  simp only [addf_apply, mulf_apply, subf_apply, divf_apply, select_apply, cmpf_apply, broadcast_apply, truncf_apply, rsqrt_apply,
    shapeCast_self, matmul_expand, broadcastTo_1b_ab_apply, broadcastTo_a1_ab_apply, shapeCast_a_a1_apply,
    Ideal.ofBits_def, select_oge_zero, lin, leaky, lnOnePass]
  rw [rowsum256 x0 p, rowsum256 (mulf x0 x0) p]
  rfl

/-- The row sums of the first half, kept as a column: at `(p, 0)` the sum of row `p`. -/
theorem pay3_apply (x0 : FVec Ideal S2048x256 .f32) (x1 x2 : FVec Ideal S1x256 .f32) (x3 : FVec Ideal S256x512 .bf16)
    (x4 : FVec Ideal S1x512 .f32) (p : Fin 2048) :
    k0_pay3 (F := Ideal) x0 x1 x2 x3 x4 (ix2 p (0 : Fin 1)) = ∑ n : Fin 512, k0_pay2 (F := Ideal) x0 x1 x2 x3 x4 (ix2 p n) := by
  unfold k0_pay3
  simp only [shapeCast_a_a1_apply]
  exact rowsum512 _ p

/-- The second half of the body at `(p, q)`, from the first half `g` and its row sums `sg`. -/
theorem pay1_apply (x0 : FVec Ideal S2048x256 .f32) (g : FVec Ideal S2048x512 .f32) (sg : FVec Ideal S2048x1 .f32)
    (x5 x6 : FVec Ideal S1x512 .f32) (x7 : FVec Ideal S512x256 .bf16) (x8 : FVec Ideal S1x256 .f32) (p : Fin 2048) (q : Fin 256)
    (hsg : sg (ix2 p (0 : Fin 1)) = ∑ n : Fin 512, g (ix2 p n)) :
    k0_pay1 (F := Ideal) x0 g sg x5 x6 x7 x8 (ix2 p q)
      = lin (fun n : Fin 512 => leaky (Ideal.ofBits .f32 0x3C23D70A#32)
            (lnOnePass (Ideal.ofBits .f32 0x44000000#32) (Ideal.ofBits .f32 0x3727C5AC#32) (fun i : Fin 512 => g (ix2 p i))
              (fun i : Fin 512 => x5 (ix2 (0 : Fin 1) i)) (fun i : Fin 512 => x6 (ix2 (0 : Fin 1) i)) n))
          (fun (j : Fin 256) (n : Fin 512) => x7 (ix2 n j)) (fun j : Fin 256 => x8 (ix2 (0 : Fin 1) j)) q + x0 (ix2 p q) := by
  unfold k0_pay1
  simp only [addf_apply, mulf_apply, subf_apply, divf_apply, select_apply, cmpf_apply, broadcast_apply, truncf_apply, rsqrt_apply,
    shapeCast_self, matmul_shrink, broadcastTo_1b_ab_apply, broadcastTo_a1_ab_apply, shapeCast_a_a1_apply,
    Ideal.ofBits_def, select_oge_zero, lin, leaky, lnOnePass]
  rw [rowsum512 (mulf g g) p, hsg]
  rfl

/-- THE BODY AT AN INDEX: entry `(p, q)` of what the body stores is the one-pass row network of row `p` of the input
    block, with the weight rows, the two weight blocks read transposed, and the bias rows. -/
theorem pay_apply (x0 : FVec Ideal S2048x256 .f32) (x1 x2 : FVec Ideal S1x256 .f32) (x3 : FVec Ideal S256x512 .bf16)
    (x4 x5 x6 : FVec Ideal S1x512 .f32) (x7 : FVec Ideal S512x256 .bf16) (x8 : FVec Ideal S1x256 .f32) (p : Fin 2048) (q : Fin 256) :
    k0_pay1 (F := Ideal) x0 (k0_pay2 x0 x1 x2 x3 x4) (k0_pay3 x0 x1 x2 x3 x4) x5 x6 x7 x8 (ix2 p q)
      = netOnePass (Ideal.ofBits .f32 0x43800000#32) (Ideal.ofBits .f32 0x44000000#32) (Ideal.ofBits .f32 0x3727C5AC#32)
          (Ideal.ofBits .f32 0x3C23D70A#32)
          (fun k : Fin 256 => x0 (ix2 p k)) (fun k : Fin 256 => x1 (ix2 (0 : Fin 1) k)) (fun k : Fin 256 => x2 (ix2 (0 : Fin 1) k))
          (fun (n : Fin 512) (k : Fin 256) => x3 (ix2 k n)) (fun n : Fin 512 => x4 (ix2 (0 : Fin 1) n))
          (fun n : Fin 512 => x5 (ix2 (0 : Fin 1) n)) (fun n : Fin 512 => x6 (ix2 (0 : Fin 1) n))
          (fun (j : Fin 256) (n : Fin 512) => x7 (ix2 n j)) (fun j : Fin 256 => x8 (ix2 (0 : Fin 1) j)) q := by
  rw [pay1_apply x0 _ _ x5 x6 x7 x8 p q (pay3_apply x0 x1 x2 x3 x4 p)]
  have hg : (fun i : Fin 512 => k0_pay2 (F := Ideal) x0 x1 x2 x3 x4 (ix2 p i))
      = lin (fun k : Fin 256 => leaky (Ideal.ofBits .f32 0x3C23D70A#32)
            (lnOnePass (Ideal.ofBits .f32 0x43800000#32) (Ideal.ofBits .f32 0x3727C5AC#32) (fun i : Fin 256 => x0 (ix2 p i))
              (fun i : Fin 256 => x1 (ix2 (0 : Fin 1) i)) (fun i : Fin 256 => x2 (ix2 (0 : Fin 1) i)) k))
          (fun (n : Fin 512) (k : Fin 256) => x3 (ix2 k n)) (fun n : Fin 512 => x4 (ix2 (0 : Fin 1) n)) :=
    funext fun i => pay2_apply x0 x1 x2 x3 x4 p i
  rw [hg]
  rfl

end Cert.KernelIdeal.KerRow

end
-- ==== Proof.Spec.lean ====
/-
  The result array as one function of the argument arrays, index by index, in the two arrangements.

  Entry `(r, j)` of the result depends on row `r` of the input, on the two weight rows and bias rows, and on the two
  weight matrices read transposed: it is the row network of that row at column `j`. `onePass` takes each variance as
  the mean of squares minus the squared mean and multiplies by the reciprocal square root; `twoPass` takes it as the
  mean of squared deviations and divides by the square root. When the input, the first weight and bias rows, the
  first weight matrix and its bias are real numbers, the two are the same array.
-/
import proofs.«114084_j39616778338828_2_alg».proof.Proof.RowMath
import Idealize.ShloMosaic.Lib.ValueIdx

noncomputable section

namespace Cert.Spec

open Idealize.ShloMosaic Idealize.ShloMosaic.ValueIdx Cert.RowNet

/-- The row of an index of the 262144 × 256 array. -/
def rowOf (i : (⟨2, ![262144, 256]⟩ : Shape).Idx) : Fin 262144 := ⟨(i 0).val, idx2_lt0 i⟩
/-- Its column. -/
def colOf (i : (⟨2, ![262144, 256]⟩ : Shape).Idx) : Fin 256 := ⟨(i 1).val, idx2_lt1 i⟩

theorem eq_ix2_rowOf_colOf (i : (⟨2, ![262144, 256]⟩ : Shape).Idx) : i = ix2 (rowOf i) (colOf i) := by
  funext a
  match a with
  | ⟨0, _⟩ => rfl
  | ⟨1, _⟩ => rfl

theorem rowOf_ix2 (r : Fin 262144) (j : Fin 256) : rowOf (ix2 r j) = r := rfl
theorem colOf_ix2 (r : Fin 262144) (j : Fin 256) : colOf (ix2 r j) = j := rfl

section
variable (x : (⟨2, ![262144, 256]⟩ : Shape).Idx → EReal) (w1 b1 : (⟨2, ![1, 256]⟩ : Shape).Idx → EReal)
  (We : (⟨2, ![512, 256]⟩ : Shape).Idx → EReal) (be : (⟨1, ![512]⟩ : Shape).Idx → EReal)
  (w2 b2 : (⟨2, ![1, 512]⟩ : Shape).Idx → EReal) (Ws : (⟨2, ![256, 512]⟩ : Shape).Idx → EReal)
  (bs : (⟨1, ![256]⟩ : Shape).Idx → EReal)

/-- The result with one-pass variances and reciprocal square roots. -/
def onePass : (⟨2, ![262144, 256]⟩ : Shape).Idx → EReal := fun i =>
  netOnePass (Ideal.ofBits .f32 0x43800000#32) (Ideal.ofBits .f32 0x44000000#32) (Ideal.ofBits .f32 0x3727C5AC#32)
    (Ideal.ofBits .f32 0x3C23D70A#32)
    (fun k : Fin 256 => x (ix2 (rowOf i) k)) (fun k : Fin 256 => w1 (ix2 (0 : Fin 1) k)) (fun k : Fin 256 => b1 (ix2 (0 : Fin 1) k))
    (fun (n : Fin 512) (k : Fin 256) => We (ix2 n k)) (fun n : Fin 512 => be (ix1 n))
    (fun n : Fin 512 => w2 (ix2 (0 : Fin 1) n)) (fun n : Fin 512 => b2 (ix2 (0 : Fin 1) n))
    (fun (j : Fin 256) (n : Fin 512) => Ws (ix2 j n)) (fun j : Fin 256 => bs (ix1 j)) (colOf i)

/-- The result with two-pass variances and quotients by square roots. -/
def twoPass : (⟨2, ![262144, 256]⟩ : Shape).Idx → EReal := fun i =>
  netTwoPass (Ideal.ofBits .f32 0x43800000#32) (Ideal.ofBits .f32 0x44000000#32) (Ideal.ofBits .f32 0x3727C5AC#32)
    (Ideal.ofBits .f32 0x3C23D70A#32)
    (fun k : Fin 256 => x (ix2 (rowOf i) k)) (fun k : Fin 256 => w1 (ix2 (0 : Fin 1) k)) (fun k : Fin 256 => b1 (ix2 (0 : Fin 1) k))
    (fun (n : Fin 512) (k : Fin 256) => We (ix2 n k)) (fun n : Fin 512 => be (ix1 n))
    (fun n : Fin 512 => w2 (ix2 (0 : Fin 1) n)) (fun n : Fin 512 => b2 (ix2 (0 : Fin 1) n))
    (fun (j : Fin 256) (n : Fin 512) => Ws (ix2 j n)) (fun j : Fin 256 => bs (ix1 j)) (colOf i)

/-- On real inputs the two arrangements are one array: the literal 256 (512) is the length of the rows it divides
    the sums of, the small constant is a positive real, and the slope is a real. -/
theorem onePass_eq_twoPass (hx : ∀ i, IsReal (x i)) (hw1 : ∀ i, IsReal (w1 i)) (hb1 : ∀ i, IsReal (b1 i))
    (hWe : ∀ i, IsReal (We i)) (hbe : ∀ i, IsReal (be i)) :
    onePass x w1 b1 We be w2 b2 Ws bs = twoPass x w1 b1 We be w2 b2 Ws bs := by
  funext i
  exact netOnePass_eq_netTwoPass _ _ _ _
    (by rw [ofBits_256, Fintype.card_fin]; norm_num) (by rw [ofBits_512, Fintype.card_fin]; norm_num)
    ofBits_eps ofBits_slope _ _ _ _ _ _ _ _ _
    (fun k => hx _) (fun k => hw1 _) (fun k => hb1 _) (fun n k => hWe _) (fun n => hbe _) _

end

end Cert.Spec

end
-- ==== Proof.KerArray.lean ====
/-
  The kernel's result array as one function of the argument arrays.

  Grid point `t` stages rows `2048 t … 2048 t + 2047` of the input and the whole of every weight, and writes back
  the body's result for those rows. Entry `(p, q)` of that result is the one-pass row network of row `p` of the
  staged block, that is of row `2048 t + p` of the input: so what point `t` writes back is block `t` of ONE array,
  and the 128 blocks cover it. The two weight matrices reach the kernel transposed and narrowed (the narrowing is
  the identity on the values), the two bias vectors as rows.
-/
import proofs.«114084_j39616778338828_2_alg».proof.Proof.Gen.KernelIdeal.Value
import proofs.«114084_j39616778338828_2_alg».proof.Proof.KerRow
import proofs.«114084_j39616778338828_2_alg».proof.Proof.Spec
import Idealize.ShloMosaic.Lib.ValueLayout
import Idealize.ShloMosaic.Lib.StableHlo.Run

noncomputable section

namespace Cert.KernelIdeal.KerArray

open Cert.KernelIdeal Cert.KernelIdeal.Gen Idealize.ShloMosaic Idealize.ShloMosaic.TcCoe Idealize.SL.Sem
open Idealize.ShloMosaic.ValueIdx Cert.RowNet Cert.Spec
open Idealize.ShloMosaic.Pipeline (Dat)
open Idealize.ShloMosaic.StableHlo (after_nil after_cons)

variable (m : (ℓ : Loc nD τ sig) → Buf (Elt Ideal) ℓ) (ρ : Dev nD → PrngReg)

theorem hz : (![0, 0] : Fin 2 → Nat) = fun _ => 0 := funext fun a => by fin_cases a <;> rfl

/-- The array the blocks are blocks of, from the arrays as the region finds them: the one-pass row network of the
    input's row, the weight blocks read as staged (first index the contracted one). -/
def G (A0 : FVec Ideal S262144x256 .f32) (A1 A2 : FVec Ideal S1x256 .f32) (A3 : FVec Ideal S256x512 .bf16)
    (A4 A5 A6 : FVec Ideal S1x512 .f32) (A7 : FVec Ideal S512x256 .bf16) (A8 : FVec Ideal S1x256 .f32) :
    S262144x256.Idx → EReal := fun i =>
  netOnePass (Ideal.ofBits .f32 0x43800000#32) (Ideal.ofBits .f32 0x44000000#32) (Ideal.ofBits .f32 0x3727C5AC#32)
    (Ideal.ofBits .f32 0x3C23D70A#32)
    (fun k : Fin 256 => A0 (ix2 (rowOf i) k)) (fun k : Fin 256 => A1 (ix2 (0 : Fin 1) k)) (fun k : Fin 256 => A2 (ix2 (0 : Fin 1) k))
    (fun (n : Fin 512) (k : Fin 256) => A3 (ix2 k n)) (fun n : Fin 512 => A4 (ix2 (0 : Fin 1) n))
    (fun n : Fin 512 => A5 (ix2 (0 : Fin 1) n)) (fun n : Fin 512 => A6 (ix2 (0 : Fin 1) n))
    (fun (j : Fin 256) (n : Fin 512) => A7 (ix2 n j)) (fun j : Fin 256 => A8 (ix2 (0 : Fin 1) j)) (colOf i)

/-- The body's result at `(p, q)` of a block whose row `p` is row `R` of the array, the other blocks whole arrays, is
    the array function at `(R, q)`. -/
theorem pay_eq_G (x0 : FVec Ideal S2048x256 .f32) (x1 x2 : FVec Ideal S1x256 .f32) (x3 : FVec Ideal S256x512 .bf16)
    (x4 x5 x6 : FVec Ideal S1x512 .f32) (x7 : FVec Ideal S512x256 .bf16) (x8 : FVec Ideal S1x256 .f32)
    (A0 : FVec Ideal S262144x256 .f32) (y : S2048x256.Idx) (i : S262144x256.Idx)
    (p : Fin 2048) (q : Fin 256) (R : Fin 262144) (hy : y = ix2 p q) (hi : i = ix2 R q)
    (h0 : ∀ k : Fin 256, x0 (ix2 p k) = A0 (ix2 R k)) :
    k0_pay1 (F := Ideal) x0 (k0_pay2 x0 x1 x2 x3 x4) (k0_pay3 x0 x1 x2 x3 x4) x5 x6 x7 x8 y
      = G A0 x1 x2 x3 x4 x5 x6 x7 x8 i := by
  subst hy hi
  rw [KerRow.pay_apply]
  unfold G
  rw [rowOf_ix2, colOf_ix2, show (fun k : Fin 256 => x0 (ix2 p k)) = fun k : Fin 256 => A0 (ix2 R k) from funext h0]

/-- The printed index maps, decided over the 128 grid points: the input's and the output's blocks move together
    along the rows, and every weight's block is its whole array. -/
theorem idx_facts : ∀ t : Fin cfg0.N,
    win0_0.index t (0 : Fin 2) = win0_9.index t (0 : Fin 2) ∧ win0_0.index t (1 : Fin 2) = 0
    ∧ win0_9.index t (1 : Fin 2) = 0 ∧ win0_9.index t (0 : Fin 2) ≤ 127
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every block of rows is some point's. -/
theorem idx_onto : ∀ q0 : Fin 128, ∃ t : Fin cfg0.N, win0_9.index t = ![q0.val, 0] :=
  (by decide +kernel : ∀ q0 : Fin 128, ∃ t : Fin grid0.N, win0_9.index t = ![q0.val, 0])

/-- WHAT POINT `t` WRITES BACK is block `t` of the array function of the arrays as the region finds them. -/
theorem flushed_eq (c : Dev nD) (t : Fin cfg0.N) :
    (dats m 0 c).flushed 9 t = ((cfg0.win 9).blk t).view.read (Elt Ideal)
      (G (V m c main_arg0) (V m c main_arg2) (V m c main_arg3) (V m c main_v1) (V m c main_v4) (V m c main_arg6) (V m c main_arg7)
        (V m c main_v3) (V m c main_v5)) := by
  rw [Value.flushed9]
  unfold out0_9
  rw [View.canon_unit_zero hz]
  simp only [View.ld_unit_zero (S := S2048x256) hz, View.ld_unit_zero (S := S1x256) hz, View.ld_unit_zero (S := S256x512) hz,
    View.ld_unit_zero (S := S1x512) hz, View.ld_unit_zero (S := S512x256) hz]
  obtain ⟨e0, e1, e2, e3, f10, f11, f20, f21, f30, f31, f40, f41, f50, f51, f60, f61, f70, f71, f80, f81⟩ := idx_facts t
  funext y
  have b1 : iblk m c 1 t = V m c main_arg2 := by
    funext z
    show V m c main_arg2 (((cfg0.win 1).blk t).view.emb z) = V m c main_arg2 z
    refine congrArg _ (funext fun a => Fin.ext ?_)
    match a with
    | ⟨0, _⟩ => show win0_1.index t (0 : Fin 2) * 1 + 1 * (z 0).val = (z 0).val; rw [f10]; omega
    | ⟨1, _⟩ => show win0_1.index t (1 : Fin 2) * 256 + 1 * (z 1).val = (z 1).val; rw [f11]; omega
  have b2 : iblk m c 2 t = V m c main_arg3 := by
    funext z
    show V m c main_arg3 (((cfg0.win 2).blk t).view.emb z) = V m c main_arg3 z
    refine congrArg _ (funext fun a => Fin.ext ?_)
    match a with
    | ⟨0, _⟩ => show win0_2.index t (0 : Fin 2) * 1 + 1 * (z 0).val = (z 0).val; rw [f20]; omega
    | ⟨1, _⟩ => show win0_2.index t (1 : Fin 2) * 256 + 1 * (z 1).val = (z 1).val; rw [f21]; omega
  have b3 : iblk m c 3 t = V m c main_v1 := by
    funext z
    show V m c main_v1 (((cfg0.win 3).blk t).view.emb z) = V m c main_v1 z
    refine congrArg _ (funext fun a => Fin.ext ?_)
    match a with
    | ⟨0, _⟩ => show win0_3.index t (0 : Fin 2) * 256 + 1 * (z 0).val = (z 0).val; rw [f30]; omega
    | ⟨1, _⟩ => show win0_3.index t (1 : Fin 2) * 512 + 1 * (z 1).val = (z 1).val; rw [f31]; omega
  have b4 : iblk m c 4 t = V m c main_v4 := by
    funext z
    show V m c main_v4 (((cfg0.win 4).blk t).view.emb z) = V m c main_v4 z
    refine congrArg _ (funext fun a => Fin.ext ?_)
    match a with
    | ⟨0, _⟩ => show win0_4.index t (0 : Fin 2) * 1 + 1 * (z 0).val = (z 0).val; rw [f40]; omega
    | ⟨1, _⟩ => show win0_4.index t (1 : Fin 2) * 512 + 1 * (z 1).val = (z 1).val; rw [f41]; omega
  have b5 : iblk m c 5 t = V m c main_arg6 := by
    funext z
    show V m c main_arg6 (((cfg0.win 5).blk t).view.emb z) = V m c main_arg6 z
    refine congrArg _ (funext fun a => Fin.ext ?_)
    match a with
    | ⟨0, _⟩ => show win0_5.index t (0 : Fin 2) * 1 + 1 * (z 0).val = (z 0).val; rw [f50]; omega
    | ⟨1, _⟩ => show win0_5.index t (1 : Fin 2) * 512 + 1 * (z 1).val = (z 1).val; rw [f51]; omega
  have b6 : iblk m c 6 t = V m c main_arg7 := by
    funext z
    show V m c main_arg7 (((cfg0.win 6).blk t).view.emb z) = V m c main_arg7 z
    refine congrArg _ (funext fun a => Fin.ext ?_)
    match a with
    | ⟨0, _⟩ => show win0_6.index t (0 : Fin 2) * 1 + 1 * (z 0).val = (z 0).val; rw [f60]; omega
    | ⟨1, _⟩ => show win0_6.index t (1 : Fin 2) * 512 + 1 * (z 1).val = (z 1).val; rw [f61]; omega
  have b7 : iblk m c 7 t = V m c main_v3 := by
    funext z
    show V m c main_v3 (((cfg0.win 7).blk t).view.emb z) = V m c main_v3 z
    refine congrArg _ (funext fun a => Fin.ext ?_)
    match a with
    | ⟨0, _⟩ => show win0_7.index t (0 : Fin 2) * 512 + 1 * (z 0).val = (z 0).val; rw [f70]; omega
    | ⟨1, _⟩ => show win0_7.index t (1 : Fin 2) * 256 + 1 * (z 1).val = (z 1).val; rw [f71]; omega
  have b8 : iblk m c 8 t = V m c main_v5 := by
    funext z
    show V m c main_v5 (((cfg0.win 8).blk t).view.emb z) = V m c main_v5 z
    refine congrArg _ (funext fun a => Fin.ext ?_)
    match a with
    | ⟨0, _⟩ => show win0_8.index t (0 : Fin 2) * 1 + 1 * (z 0).val = (z 0).val; rw [f80]; omega
    | ⟨1, _⟩ => show win0_8.index t (1 : Fin 2) * 256 + 1 * (z 1).val = (z 1).val; rw [f81]; omega
  rw [b1, b2, b3, b4, b5, b6, b7, b8]
  have hy0 : (y 0).val < 2048 := (y 0).isLt
  have hy1 : (y 1).val < 256 := (y 1).isLt
  refine pay_eq_G (iblk m c 0 t) _ _ _ _ _ _ _ _ (V m c main_arg0) y (((cfg0.win 9).blk t).view.emb y)
    ⟨(y 0).val, hy0⟩ ⟨(y 1).val, hy1⟩ ⟨win0_9.index t (0 : Fin 2) * 2048 + (y 0).val, by omega⟩ ?_ ?_ ?_
  · funext a
    match a with
    | ⟨0, _⟩ => rfl
    | ⟨1, _⟩ => rfl
  · funext a
    apply Fin.ext
    match a with
    | ⟨0, _⟩ => show win0_9.index t (0 : Fin 2) * 2048 + 1 * (y 0).val = win0_9.index t (0 : Fin 2) * 2048 + (y 0).val; omega
    | ⟨1, _⟩ => show win0_9.index t (1 : Fin 2) * 256 + 1 * (y 1).val = (y 1).val; rw [e2]; omega
  · intro k
    show V m c main_arg0 (((cfg0.win 0).blk t).view.emb (ix2 ⟨(y 0).val, hy0⟩ k)) = V m c main_arg0 _
    refine congrArg _ (funext fun a => Fin.ext ?_)
    match a with
    | ⟨0, _⟩ => show win0_0.index t (0 : Fin 2) * 2048 + 1 * (y 0).val = win0_9.index t (0 : Fin 2) * 2048 + (y 0).val; rw [e0]; omega
    | ⟨1, _⟩ => show win0_0.index t (1 : Fin 2) * 256 + 1 * k.val = k.val; rw [e1]; omega

/-- An index of the array is in point `t`'s block iff each coordinate is in the block's range on its axis. -/
theorem mem_blk (t : Fin cfg0.N) (i : S262144x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v6).slice (win0_9.rect t)).set ↔ _
  rw [View.set_slice_whole, Rect.mem_set_unit]
  exact Iff.rfl

/-- The 128 blocks of 2048 rows cover the array: row `r` is in the block of point `r / 2048`. -/
theorem cover (i : S262144x256.Idx) : ∃ t : Fin cfg0.N, (cfg0.win 9).flush t = true ∧ i ∈ ((cfg0.win 9).blk t).view.set := by
  have hi0 : (i 0).val < 262144 := (i 0).isLt
  have hi1 : (i 1).val < 256 := (i 1).isLt
  obtain ⟨t, ht⟩ := idx_onto ⟨(i 0).val / 2048, by omega⟩
  have q0 : win0_9.index t (0 : Fin 2) = (i 0).val / 2048 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 256 ≤ (i 1).val ∧ (i 1).val < win0_9.index t (1 : Fin 2) * 256 + 256; omega

/-- THE ARRAY after the run is the array function of the arrays as the region finds them. -/
theorem final (c : Dev nD) : (dats m 0 c).arrAt 9 cfg0.N
    = G (V m c main_arg0) (V m c main_arg2) (V m c main_arg3) (V m c main_v1) (V m c main_v4) (V m c main_arg6) (V m c main_arg7)
        (V m c main_v3) (V m c main_v5) :=
  (dats m 0 c).arrAt_eq_of_cover 9 _ (fun t _ => flushed_eq m c t) cover

/-! ## The arrays the host prepares before the region -/

/-- The first weight as the region finds it, at `(k, n)`: the argument's entry `(n, k)`. -/
theorem V_main_v1_apply (c : Dev nD) (k : Fin 256) (n : Fin 512) :
    V m c main_v1 (ix2 k n) = m ((c : Thread nD τ).loc main_arg4) (ix2 n k) := by
  have e : (V m c main_v1 : S256x512.Idx → EReal)
      = truncf (F := Ideal) .bf16 (transpose S256x512 [1, 0] (m ((c : Thread nD τ).loc main_arg4) : FVec Ideal S512x256 .f32) transposes_S512x256_S256x512_1_0) bitsLt_bf16_f32 := by
    dsimp only [Gen.V, Gen.hostOps0]; after_results
  rw [e, truncf_apply]
  exact transpose_ix2_apply _ _ k n

/-- The second weight as the region finds it, at `(n, j)`: the argument's entry `(j, n)`. -/
theorem V_main_v3_apply (c : Dev nD) (n : Fin 512) (j : Fin 256) :
    V m c main_v3 (ix2 n j) = m ((c : Thread nD τ).loc main_arg8) (ix2 j n) := by
  have e : (V m c main_v3 : S512x256.Idx → EReal)
      = truncf (F := Ideal) .bf16 (transpose S512x256 [1, 0] (m ((c : Thread nD τ).loc main_arg8) : FVec Ideal S256x512 .f32) transposes_S256x512_S512x256_1_0) bitsLt_bf16_f32 := by
    dsimp only [Gen.V, Gen.hostOps0]; after_results
  rw [e, truncf_apply]
  exact transpose_ix2_apply _ _ n j

/-- The first bias as the region finds it, a row: at `(0, n)` the argument's entry `n`. -/
theorem V_main_v4_apply (c : Dev nD) (n : Fin 512) :
    V m c main_v4 (ix2 (0 : Fin 1) n) = m ((c : Thread nD τ).loc main_arg5) (ix1 n) := by
  have e : (V m c main_v4 : S1x512.Idx → EReal) = shapeCast S1x512 (m ((c : Thread nD τ).loc main_arg5)) shapeCasts_S512_S1x512 := by
    dsimp only [Gen.V, Gen.hostOps0]; after_results; rfl
  rw [e]
  exact shapeCast_a_1a_apply _ _ (0 : Fin 1) n

/-- The second bias as the region finds it, a row: at `(0, j)` the argument's entry `j`. -/
theorem V_main_v5_apply (c : Dev nD) (j : Fin 256) :
    V m c main_v5 (ix2 (0 : Fin 1) j) = m ((c : Thread nD τ).loc main_arg9) (ix1 j) := by
  have e : (V m c main_v5 : S1x256.Idx → EReal) = shapeCast S1x256 (m ((c : Thread nD τ).loc main_arg9)) shapeCasts_S256_S1x256 := by
    dsimp only [Gen.V, Gen.hostOps0]; after_results; rfl
  rw [e]
  exact shapeCast_a_1a_apply _ _ (0 : Fin 1) j

/-- So the array function of the arrays the region finds is the one-pass array of the ARGUMENTS. -/
theorem G_eq_onePass (c : Dev nD) :
    G (V m c main_arg0) (V m c main_arg2) (V m c main_arg3) (V m c main_v1) (V m c main_v4) (V m c main_arg6) (V m c main_arg7)
        (V m c main_v3) (V m c main_v5)
      = onePass (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  rw [V_main_arg0, V_main_arg2, V_main_arg3, V_main_arg6, V_main_arg7]
  funext i
  unfold G onePass
  simp only [V_main_v1_apply m c, V_main_v3_apply m c, V_main_v4_apply m c, V_main_v5_apply m c]

/-! ## The run -/

/-- Every weakly fair execution of the kernel's program ends with the result array the one-pass array of the
    arguments, and the arguments unchanged. -/
theorem run : θ_run defs (onTc (τ := τ) (main (F := Ideal))) ⟨m, fun _ => 0, ρ⟩ fun r => ∀ c : Dev nD,
      r.2.mem ((c : Thread nD τ).loc main_v6)
          = onePass (m ((c : Thread nD τ).loc main_arg0)) (m ((c : Thread nD τ).loc main_arg2)) (m ((c : Thread nD τ).loc main_arg3))
              (m ((c : Thread nD τ).loc main_arg4)) (m ((c : Thread nD τ).loc main_arg5)) (m ((c : Thread nD τ).loc main_arg6))
              (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (G_eq_onePass m c)), (h c).2⟩)
    (Value.run_blocks m ρ)

end Cert.KernelIdeal.KerArray

end
-- ==== Proof.RefTerm.lean ====
/-
  What the reference computes, as one pure function of its argument arrays: a row-wise layer norm
  (mean, centred values, mean of squared deviations, quotient by the square root), a leaky ReLU, a linear
  layer (product with the transposed weight plus a bias row), the same three stages again at width 512,
  and the input added back. Each stage is named so that it can be read at an index by itself.
-/
import proofs.«114084_j39616778338828_2_alg».proof.Proof.Gen.ReferenceIdeal

noncomputable section

namespace Cert.ReferenceIdeal.RefTerm

open Cert.ReferenceIdeal Cert.ReferenceIdeal.Gen Idealize.ShloMosaic

variable {F : FTy → Type} [FloatOps F]

/-! ## Width 256 -/

/-- The row sums of a [262144, 256] array divided by 256, kept as a column. -/
def mean256 (x : FVec F S262144x256 .f32) : FVec F S262144x1 .f32 :=
  Host.divf
    (broadcastInDim S262144x1 ![0] bcast_S262144_S262144x1_0
      (Host.reduceAdd x (constant S_ .f32 0x00000000#32) reducesTo_S262144x256_S262144_d1 h_S_))
    (broadcastInDim S262144x1 ![] bcast_S_S262144x1 (constant S_ .f32 0x43800000#32))

/-- Every entry minus its row's mean. -/
def cen256 (x : FVec F S262144x256 .f32) : FVec F S262144x256 .f32 :=
  subf x (broadcastInDim S262144x256 ![0, 1] bcast_S262144x1_S262144x256_0_1 (mean256 x))

/-- The square root of (the row's mean squared deviation plus the small constant), as a column. -/
def std256 (x : FVec F S262144x256 .f32) : FVec F S262144x1 .f32 :=
  Host.sqrt
    (addf
      (Host.divf
        (broadcastInDim S262144x1 ![0] bcast_S262144_S262144x1_0
          (Host.reduceAdd (mulf (cen256 x) (cen256 x)) (constant S_ .f32 0x00000000#32) reducesTo_S262144x256_S262144_d1 h_S_))
        (broadcastInDim S262144x1 ![] bcast_S_S262144x1 (constant S_ .f32 0x43800000#32)))
      (broadcastInDim S262144x1 ![] bcast_S_S262144x1 (constant S_ .f32 0x3727C5AC#32)))

/-- The layer norm: centred entry over the row's deviation, times the weight row, plus the bias row. -/
def ln256 (x : FVec F S262144x256 .f32) (w b : FVec F S1x256 .f32) : FVec F S262144x256 .f32 :=
  addf
    (mulf
      (Host.divf (cen256 x) (broadcastInDim S262144x256 ![0, 1] bcast_S262144x1_S262144x256_0_1 (std256 x)))
      (broadcastInDim S262144x256 ![0, 1] bcast_S1x256_S262144x256_0_1 w))
    (broadcastInDim S262144x256 ![0, 1] bcast_S1x256_S262144x256_0_1 b)

/-- The leaky ReLU: an entry at least zero is kept, another is multiplied by the slope. -/
def leaky256 (h : FVec F S262144x256 .f32) : FVec F S262144x256 .f32 :=
  select (cmpf .oge h (broadcastInDim S262144x256 ![] bcast_S_S262144x256 (constant S_ .f32 0x00000000#32))) h
    (mulf (broadcastInDim S262144x256 ![] bcast_S_S262144x256 (constant S_ .f32 0x3C23D70A#32)) h)

/-- The expanding linear layer: rows times the transposed [512, 256] weight, plus the bias. -/
def lin1 (h : FVec F S262144x256 .f32) (We : FVec F S512x256 .f32) (be : FVec F S512 .f32) : FVec F S262144x512 .f32 :=
  addf
    (Host.dotGeneral dot_S262144x256_S256x512_S262144x512_1_0_0_1_n_n none h
      (transpose S256x512 [1, 0] We transposes_S512x256_S256x512_1_0))
    (broadcastInDim S262144x512 ![0, 1] bcast_S1x512_S262144x512_0_1 (broadcastInDim S1x512 ![1] bcast_S512_S1x512_1 be))

/-! ## Width 512 -/

def mean512 (x : FVec F S262144x512 .f32) : FVec F S262144x1 .f32 :=
  Host.divf
    (broadcastInDim S262144x1 ![0] bcast_S262144_S262144x1_0
      (Host.reduceAdd x (constant S_ .f32 0x00000000#32) reducesTo_S262144x512_S262144_d1 h_S_))
    (broadcastInDim S262144x1 ![] bcast_S_S262144x1 (constant S_ .f32 0x44000000#32))

def cen512 (x : FVec F S262144x512 .f32) : FVec F S262144x512 .f32 :=
  subf x (broadcastInDim S262144x512 ![0, 1] bcast_S262144x1_S262144x512_0_1 (mean512 x))

def std512 (x : FVec F S262144x512 .f32) : FVec F S262144x1 .f32 :=
  Host.sqrt
    (addf
      (Host.divf
        (broadcastInDim S262144x1 ![0] bcast_S262144_S262144x1_0
          (Host.reduceAdd (mulf (cen512 x) (cen512 x)) (constant S_ .f32 0x00000000#32) reducesTo_S262144x512_S262144_d1 h_S_))
        (broadcastInDim S262144x1 ![] bcast_S_S262144x1 (constant S_ .f32 0x44000000#32)))
      (broadcastInDim S262144x1 ![] bcast_S_S262144x1 (constant S_ .f32 0x3727C5AC#32)))

def ln512 (x : FVec F S262144x512 .f32) (w b : FVec F S1x512 .f32) : FVec F S262144x512 .f32 :=
  addf
    (mulf
      (Host.divf (cen512 x) (broadcastInDim S262144x512 ![0, 1] bcast_S262144x1_S262144x512_0_1 (std512 x)))
      (broadcastInDim S262144x512 ![0, 1] bcast_S1x512_S262144x512_0_1 w))
    (broadcastInDim S262144x512 ![0, 1] bcast_S1x512_S262144x512_0_1 b)

def leaky512 (h : FVec F S262144x512 .f32) : FVec F S262144x512 .f32 :=
  select (cmpf .oge h (broadcastInDim S262144x512 ![] bcast_S_S262144x512 (constant S_ .f32 0x00000000#32))) h
    (mulf (broadcastInDim S262144x512 ![] bcast_S_S262144x512 (constant S_ .f32 0x3C23D70A#32)) h)

/-- The shrinking linear layer: rows times the transposed [256, 512] weight, plus the bias. -/
def lin2 (h : FVec F S262144x512 .f32) (Ws : FVec F S256x512 .f32) (bs : FVec F S256 .f32) : FVec F S262144x256 .f32 :=
  addf
    (Host.dotGeneral dot_S262144x512_S512x256_S262144x256_1_0_0_1_n_n none h
      (transpose S512x256 [1, 0] Ws transposes_S256x512_S512x256_1_0))
    (broadcastInDim S262144x256 ![0, 1] bcast_S1x256_S262144x256_0_1 (broadcastInDim S1x256 ![1] bcast_S256_S1x256_1 bs))

/-- The whole reference: both blocks, and the input added back. -/
def out (x : FVec F S262144x256 .f32) (w1 b1 : FVec F S1x256 .f32) (We : FVec F S512x256 .f32) (be : FVec F S512 .f32)
    (w2 b2 : FVec F S1x512 .f32) (Ws : FVec F S256x512 .f32) (bs : FVec F S256 .f32) : FVec F S262144x256 .f32 :=
  addf (lin2 (leaky512 (ln512 (lin1 (leaky256 (ln256 x w1 b1)) We be) w2 b2)) Ws bs) x

end Cert.ReferenceIdeal.RefTerm

end
-- ==== Proof.RefRun.lean ====
/-
  The reference program's @main read as one straight line of 81 host operations (the two leaky-ReLU calls
  written out at their call sites: the zero and its broadcast, the comparison, the slope converted and
  broadcast, the product, the select), and its run: every weakly fair execution terminates with the result
  buffer at the composed pure term of the argument arrays, the arguments unchanged.
-/
import proofs.«114084_j39616778338828_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 81 operations, in program order, the calls unfolded: a leaky ReLU of `h` with slope `s` is seven
    operations into its call's buffers (zero, zero broadcast, `h ≥ 0`, `s` converted, `s` broadcast, `s · h`,
    the select of `h` or `s · h`). -/
abbrev ops : List (HloOp τ sig (Elt F)) :=
  [ nullary main_cst (constant S_ .f32 0x00000000#32),
    binary main_arg0 main_cst main_v0 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    unary main_v0 main_v1 (broadcastInDim S262144x1 ![0] bcast_S262144_S262144x1_0 : (⟨S262144, .f32⟩ : BufTy).Contents (Elt F) → (⟨S262144x1, .f32⟩ : BufTy).Contents (Elt F)),
    nullary main_cst_0 (constant S_ .f32 0x43800000#32),
    unary main_cst_0 main_v2 (broadcastInDim S262144x1 ![] bcast_S_S262144x1 : (⟨S_, .f32⟩ : BufTy).Contents (Elt F) → (⟨S262144x1, .f32⟩ : BufTy).Contents (Elt F)),
    binary main_v1 main_v2 main_v3 (Host.divf : (⟨S262144x1, .f32⟩ : BufTy).Contents (Elt F) → (⟨S262144x1, .f32⟩ : BufTy).Contents (Elt F) → (⟨S262144x1, .f32⟩ : BufTy).Contents (Elt F)),
    unary main_v3 main_v4 (broadcastInDim S262144x256 ![0, 1] bcast_S262144x1_S262144x256_0_1 : (⟨S262144x1, .f32⟩ : BufTy).Contents (Elt F) → (⟨S262144x256, .f32⟩ : BufTy).Contents (Elt F)),
    binary main_arg0 main_v4 main_v5 (subf : (⟨S262144x256, .f32⟩ : BufTy).Contents (Elt F) → (⟨S262144x256, .f32⟩ : BufTy).Contents (Elt F) → (⟨S262144x256, .f32⟩ : BufTy).Contents (Elt F)),
    binary main_v5 main_v5 main_v6 (mulf : (⟨S262144x256, .f32⟩ : BufTy).Contents (Elt F) → (⟨S262144x256, .f32⟩ : BufTy).Contents (Elt F) → (⟨S262144x256, .f32⟩ : BufTy).Contents (Elt F)),
    nullary main_cst_1 (constant S_ .f32 0x00000000#32),
    binary main_v6 main_cst_1 main_v7 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    unary main_v7 main_v8 (broadcastInDim S262144x1 ![0] bcast_S262144_S262144x1_0 : (⟨S262144, .f32⟩ : BufTy).Contents (Elt F) → (⟨S262144x1, .f32⟩ : BufTy).Contents (Elt F)),
    nullary main_cst_2 (constant S_ .f32 0x43800000#32),
    unary main_cst_2 main_v9 (broadcastInDim S262144x1 ![] bcast_S_S262144x1 : (⟨S_, .f32⟩ : BufTy).Contents (Elt F) → (⟨S262144x1, .f32⟩ : BufTy).Contents (Elt F)),
    binary main_v8 main_v9 main_v10 (Host.divf : (⟨S262144x1, .f32⟩ : BufTy).Contents (Elt F) → (⟨S262144x1, .f32⟩ : BufTy).Contents (Elt F) → (⟨S262144x1, .f32⟩ : BufTy).Contents (Elt F)),
    unary main_v3 main_v11 (broadcastInDim S262144x256 ![0, 1] bcast_S262144x1_S262144x256_0_1 : (⟨S262144x1, .f32⟩ : BufTy).Contents (Elt F) → (⟨S262144x256, .f32⟩ : BufTy).Contents (Elt F)),
    binary main_arg0 main_v11 main_v12 (subf : (⟨S262144x256, .f32⟩ : BufTy).Contents (Elt F) → (⟨S262144x256, .f32⟩ : BufTy).Contents (Elt F) → (⟨S262144x256, .f32⟩ : BufTy).Contents (Elt F)),
    nullary main_cst_3 (constant S_ .f32 0x3727C5AC#32),
    unary main_cst_3 main_v13 (broadcastInDim S262144x1 ![] bcast_S_S262144x1 : (⟨S_, .f32⟩ : BufTy).Contents (Elt F) → (⟨S262144x1, .f32⟩ : BufTy).Contents (Elt F)),
    binary main_v10 main_v13 main_v14 (addf : (⟨S262144x1, .f32⟩ : BufTy).Contents (Elt F) → (⟨S262144x1, .f32⟩ : BufTy).Contents (Elt F) → (⟨S262144x1, .f32⟩ : BufTy).Contents (Elt F)),
    unary main_v14 main_v15 (Host.sqrt : (⟨S262144x1, .f32⟩ : BufTy).Contents (Elt F) → (⟨S262144x1, .f32⟩ : BufTy).Contents (Elt F)),
    unary main_v15 main_v16 (broadcastInDim S262144x256 ![0, 1] bcast_S262144x1_S262144x256_0_1 : (⟨S262144x1, .f32⟩ : BufTy).Contents (Elt F) → (⟨S262144x256, .f32⟩ : BufTy).Contents (Elt F)),
    binary main_v12 main_v16 main_v17 (Host.divf : (⟨S262144x256, .f32⟩ : BufTy).Contents (Elt F) → (⟨S262144x256, .f32⟩ : BufTy).Contents (Elt F) → (⟨S262144x256, .f32⟩ : BufTy).Contents (Elt F)),
    unary main_arg2 main_v18 (broadcastInDim S262144x256 ![0, 1] bcast_S1x256_S262144x256_0_1 : (⟨S1x256, .f32⟩ : BufTy).Contents (Elt F) → (⟨S262144x256, .f32⟩ : BufTy).Contents (Elt F)),
    binary main_v17 main_v18 main_v19 (mulf : (⟨S262144x256, .f32⟩ : BufTy).Contents (Elt F) → (⟨S262144x256, .f32⟩ : BufTy).Contents (Elt F) → (⟨S262144x256, .f32⟩ : BufTy).Contents (Elt F)),
    unary main_arg3 main_v20 (broadcastInDim S262144x256 ![0, 1] bcast_S1x256_S262144x256_0_1 : (⟨S1x256, .f32⟩ : BufTy).Contents (Elt F) → (⟨S262144x256, .f32⟩ : BufTy).Contents (Elt F)),
    binary main_v19 main_v20 main_v21 (addf : (⟨S262144x256, .f32⟩ : BufTy).Contents (Elt F) → (⟨S262144x256, .f32⟩ : BufTy).Contents (Elt F) → (⟨S262144x256, .f32⟩ : BufTy).Contents (Elt F)),
    nullary main_cst_4 (constant S_ .f32 0x3C23D70A#32),
    TRef.nullary main_call0.cst (constant S_ .f32 0x00000000#32),
    TRef.unary main_call0.cst main_call0.v0 (broadcastInDim S262144x256 ![] bcast_S_S262144x256),
    TRef.binary (.of main_v21) main_call0.v0 main_call0.v1 (cmpf .oge),
    TRef.unary (.of main_cst_4) main_call0.v2 id,
    TRef.unary main_call0.v2 main_call0.v3 (broadcastInDim S262144x256 ![] bcast_S_S262144x256),
    TRef.binary main_call0.v3 (.of main_v21) main_call0.v4 mulf,
    TRef.ternary main_call0.v1 (.of main_v21) main_call0.v4 main_call0.call0.v0 select,
    unary main_arg4 main_v23 ((transpose S256x512 [1, 0] · transposes_S512x256_S256x512_1_0) : (⟨S512x256, .f32⟩ : BufTy).Contents (Elt F) → (⟨S256x512, .f32⟩ : BufTy).Contents (Elt F)),
    binary main_v22 main_v23 main_v24 ((fun l r => Host.dotGeneral dot_S262144x256_S256x512_S262144x512_1_0_0_1_n_n none l r) : (⟨S262144x256, .f32⟩ : BufTy).Contents (Elt F) → (⟨S256x512, .f32⟩ : BufTy).Contents (Elt F) → (⟨S262144x512, .f32⟩ : BufTy).Contents (Elt F)),
    unary main_arg5 main_v25 (broadcastInDim S1x512 ![1] bcast_S512_S1x512_1 : (⟨S512, .f32⟩ : BufTy).Contents (Elt F) → (⟨S1x512, .f32⟩ : BufTy).Contents (Elt F)),
    unary main_v25 main_v26 (broadcastInDim S262144x512 ![0, 1] bcast_S1x512_S262144x512_0_1 : (⟨S1x512, .f32⟩ : BufTy).Contents (Elt F) → (⟨S262144x512, .f32⟩ : BufTy).Contents (Elt F)),
    binary main_v24 main_v26 main_v27 (addf : (⟨S262144x512, .f32⟩ : BufTy).Contents (Elt F) → (⟨S262144x512, .f32⟩ : BufTy).Contents (Elt F) → (⟨S262144x512, .f32⟩ : BufTy).Contents (Elt F)),
    nullary main_cst_5 (constant S_ .f32 0x00000000#32),
    binary main_v27 main_cst_5 main_v28 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    unary main_v28 main_v29 (broadcastInDim S262144x1 ![0] bcast_S262144_S262144x1_0 : (⟨S262144, .f32⟩ : BufTy).Contents (Elt F) → (⟨S262144x1, .f32⟩ : BufTy).Contents (Elt F)),
    nullary main_cst_6 (constant S_ .f32 0x44000000#32),
    unary main_cst_6 main_v30 (broadcastInDim S262144x1 ![] bcast_S_S262144x1 : (⟨S_, .f32⟩ : BufTy).Contents (Elt F) → (⟨S262144x1, .f32⟩ : BufTy).Contents (Elt F)),
    binary main_v29 main_v30 main_v31 (Host.divf : (⟨S262144x1, .f32⟩ : BufTy).Contents (Elt F) → (⟨S262144x1, .f32⟩ : BufTy).Contents (Elt F) → (⟨S262144x1, .f32⟩ : BufTy).Contents (Elt F)),
    unary main_v31 main_v32 (broadcastInDim S262144x512 ![0, 1] bcast_S262144x1_S262144x512_0_1 : (⟨S262144x1, .f32⟩ : BufTy).Contents (Elt F) → (⟨S262144x512, .f32⟩ : BufTy).Contents (Elt F)),
    binary main_v27 main_v32 main_v33 (subf : (⟨S262144x512, .f32⟩ : BufTy).Contents (Elt F) → (⟨S262144x512, .f32⟩ : BufTy).Contents (Elt F) → (⟨S262144x512, .f32⟩ : BufTy).Contents (Elt F)),
    binary main_v33 main_v33 main_v34 (mulf : (⟨S262144x512, .f32⟩ : BufTy).Contents (Elt F) → (⟨S262144x512, .f32⟩ : BufTy).Contents (Elt F) → (⟨S262144x512, .f32⟩ : BufTy).Contents (Elt F)),
    nullary main_cst_7 (constant S_ .f32 0x00000000#32),
    binary main_v34 main_cst_7 main_v35 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    unary main_v35 main_v36 (broadcastInDim S262144x1 ![0] bcast_S262144_S262144x1_0 : (⟨S262144, .f32⟩ : BufTy).Contents (Elt F) → (⟨S262144x1, .f32⟩ : BufTy).Contents (Elt F)),
    nullary main_cst_8 (constant S_ .f32 0x44000000#32),
    unary main_cst_8 main_v37 (broadcastInDim S262144x1 ![] bcast_S_S262144x1 : (⟨S_, .f32⟩ : BufTy).Contents (Elt F) → (⟨S262144x1, .f32⟩ : BufTy).Contents (Elt F)),
    binary main_v36 main_v37 main_v38 (Host.divf : (⟨S262144x1, .f32⟩ : BufTy).Contents (Elt F) → (⟨S262144x1, .f32⟩ : BufTy).Contents (Elt F) → (⟨S262144x1, .f32⟩ : BufTy).Contents (Elt F)),
    unary main_v31 main_v39 (broadcastInDim S262144x512 ![0, 1] bcast_S262144x1_S262144x512_0_1 : (⟨S262144x1, .f32⟩ : BufTy).Contents (Elt F) → (⟨S262144x512, .f32⟩ : BufTy).Contents (Elt F)),
    binary main_v27 main_v39 main_v40 (subf : (⟨S262144x512, .f32⟩ : BufTy).Contents (Elt F) → (⟨S262144x512, .f32⟩ : BufTy).Contents (Elt F) → (⟨S262144x512, .f32⟩ : BufTy).Contents (Elt F)),
    nullary main_cst_9 (constant S_ .f32 0x3727C5AC#32),
    unary main_cst_9 main_v41 (broadcastInDim S262144x1 ![] bcast_S_S262144x1 : (⟨S_, .f32⟩ : BufTy).Contents (Elt F) → (⟨S262144x1, .f32⟩ : BufTy).Contents (Elt F)),
    binary main_v38 main_v41 main_v42 (addf : (⟨S262144x1, .f32⟩ : BufTy).Contents (Elt F) → (⟨S262144x1, .f32⟩ : BufTy).Contents (Elt F) → (⟨S262144x1, .f32⟩ : BufTy).Contents (Elt F)),
    unary main_v42 main_v43 (Host.sqrt : (⟨S262144x1, .f32⟩ : BufTy).Contents (Elt F) → (⟨S262144x1, .f32⟩ : BufTy).Contents (Elt F)),
    unary main_v43 main_v44 (broadcastInDim S262144x512 ![0, 1] bcast_S262144x1_S262144x512_0_1 : (⟨S262144x1, .f32⟩ : BufTy).Contents (Elt F) → (⟨S262144x512, .f32⟩ : BufTy).Contents (Elt F)),
    binary main_v40 main_v44 main_v45 (Host.divf : (⟨S262144x512, .f32⟩ : BufTy).Contents (Elt F) → (⟨S262144x512, .f32⟩ : BufTy).Contents (Elt F) → (⟨S262144x512, .f32⟩ : BufTy).Contents (Elt F)),
    unary main_arg6 main_v46 (broadcastInDim S262144x512 ![0, 1] bcast_S1x512_S262144x512_0_1 : (⟨S1x512, .f32⟩ : BufTy).Contents (Elt F) → (⟨S262144x512, .f32⟩ : BufTy).Contents (Elt F)),
    binary main_v45 main_v46 main_v47 (mulf : (⟨S262144x512, .f32⟩ : BufTy).Contents (Elt F) → (⟨S262144x512, .f32⟩ : BufTy).Contents (Elt F) → (⟨S262144x512, .f32⟩ : BufTy).Contents (Elt F)),
    unary main_arg7 main_v48 (broadcastInDim S262144x512 ![0, 1] bcast_S1x512_S262144x512_0_1 : (⟨S1x512, .f32⟩ : BufTy).Contents (Elt F) → (⟨S262144x512, .f32⟩ : BufTy).Contents (Elt F)),
    binary main_v47 main_v48 main_v49 (addf : (⟨S262144x512, .f32⟩ : BufTy).Contents (Elt F) → (⟨S262144x512, .f32⟩ : BufTy).Contents (Elt F) → (⟨S262144x512, .f32⟩ : BufTy).Contents (Elt F)),
    nullary main_cst_10 (constant S_ .f32 0x3C23D70A#32),
    TRef.nullary main_call1.cst (constant S_ .f32 0x00000000#32),
    TRef.unary main_call1.cst main_call1.v0 (broadcastInDim S262144x512 ![] bcast_S_S262144x512),
    TRef.binary (.of main_v49) main_call1.v0 main_call1.v1 (cmpf .oge),
    TRef.unary (.of main_cst_10) main_call1.v2 id,
    TRef.unary main_call1.v2 main_call1.v3 (broadcastInDim S262144x512 ![] bcast_S_S262144x512),
    TRef.binary main_call1.v3 (.of main_v49) main_call1.v4 mulf,
    TRef.ternary main_call1.v1 (.of main_v49) main_call1.v4 main_call1.call0.v0 select,
    unary main_arg8 main_v51 ((transpose S512x256 [1, 0] · transposes_S256x512_S512x256_1_0) : (⟨S256x512, .f32⟩ : BufTy).Contents (Elt F) → (⟨S512x256, .f32⟩ : BufTy).Contents (Elt F)),
    binary main_v50 main_v51 main_v52 ((fun l r => Host.dotGeneral dot_S262144x512_S512x256_S262144x256_1_0_0_1_n_n none l r) : (⟨S262144x512, .f32⟩ : BufTy).Contents (Elt F) → (⟨S512x256, .f32⟩ : BufTy).Contents (Elt F) → (⟨S262144x256, .f32⟩ : BufTy).Contents (Elt F)),
    unary main_arg9 main_v53 (broadcastInDim S1x256 ![1] bcast_S256_S1x256_1 : (⟨S256, .f32⟩ : BufTy).Contents (Elt F) → (⟨S1x256, .f32⟩ : BufTy).Contents (Elt F)),
    unary main_v53 main_v54 (broadcastInDim S262144x256 ![0, 1] bcast_S1x256_S262144x256_0_1 : (⟨S1x256, .f32⟩ : BufTy).Contents (Elt F) → (⟨S262144x256, .f32⟩ : BufTy).Contents (Elt F)),
    binary main_v52 main_v54 main_v55 (addf : (⟨S262144x256, .f32⟩ : BufTy).Contents (Elt F) → (⟨S262144x256, .f32⟩ : BufTy).Contents (Elt F) → (⟨S262144x256, .f32⟩ : BufTy).Contents (Elt F)),
    binary main_v55 main_arg0 main_v56 (addf : (⟨S262144x256, .f32⟩ : BufTy).Contents (Elt F) → (⟨S262144x256, .f32⟩ : BufTy).Contents (Elt F) → (⟨S262144x256, .f32⟩ : BufTy).Contents (Elt F)) ]

set_option maxRecDepth 8192 in
set_option maxHeartbeats 4000000 in
/-- @main is that straight line: the two windows in order, the functions' bodies at their calls, sequencing
    reassociated. -/
theorem main_eq (c : Dev nD) : main (F := F) c = seq ops := by
  simp only [main, main_part0, main_part1, fn_leaky_relu.body, fn_where.body, fn_leaky_relu_0.body, fn_where_1.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    binary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub ..,
    binary_bufs_sub .., unary_bufs_sub .., binary_bufs_sub .., nullary_bufs_sub .., unary_bufs_sub .., binary_bufs_sub ..,
    unary_bufs_sub .., unary_bufs_sub .., binary_bufs_sub .., unary_bufs_sub .., binary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., binary_bufs_sub .., unary_bufs_sub ..,
    unary_bufs_sub .., binary_bufs_sub .., binary_bufs_sub ..⟩

attribute [local irreducible] Host.reduceAdd transpose broadcastInDim in
set_option maxRecDepth 16384 in
set_option maxHeartbeats 4000000 in
/-- The fold at the result buffer is the reference's term: the fold unrolled, each operation's result read at the
    buffer it writes, the typed references' transports the identity at these literal references. -/
theorem out_eq (V : Valuation τ sig (Elt F)) :
    after ops V (main_v56 : DevRef τ sig)
      = RefTerm.out (V (main_arg0 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) := by
  after_results_simp
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

set_option maxRecDepth 8192 in
theorem arg4_eq (V : Valuation τ sig (Elt F)) :
    after ops V (main_arg4 : DevRef τ sig) = V (main_arg4 : DevRef τ sig) := by
  after_results_simp

set_option maxRecDepth 8192 in
theorem arg5_eq (V : Valuation τ sig (Elt F)) :
    after ops V (main_arg5 : DevRef τ sig) = V (main_arg5 : DevRef τ sig) := by
  after_results_simp

set_option maxRecDepth 8192 in
theorem arg6_eq (V : Valuation τ sig (Elt F)) :
    after ops V (main_arg6 : DevRef τ sig) = V (main_arg6 : DevRef τ sig) := by
  after_results_simp

set_option maxRecDepth 8192 in
theorem arg7_eq (V : Valuation τ sig (Elt F)) :
    after ops V (main_arg7 : DevRef τ sig) = V (main_arg7 : DevRef τ sig) := by
  after_results_simp

set_option maxRecDepth 8192 in
theorem arg8_eq (V : Valuation τ sig (Elt F)) :
    after ops V (main_arg8 : DevRef τ sig) = V (main_arg8 : DevRef τ sig) := by
  after_results_simp

set_option maxRecDepth 8192 in
theorem arg9_eq (V : Valuation τ sig (Elt F)) :
    after ops V (main_arg9 : DevRef τ sig) = V (main_arg9 : DevRef τ sig) := by
  after_results_simp

/-- On every device, for any float values, from any memory with zero counters: every weakly fair execution of
    @main terminates with the result buffer at the reference's pure term of the arguments' launch contents, and
    every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = RefTerm.out (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v56).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.RefRow.lean ====
import proofs.«114084_j39616778338828_2_alg».proof.Proof.RefTerm
import proofs.«114084_j39616778338828_2_alg».proof.Proof.RowMath
import proofs.«114084_j39616778338828_2_alg».proof.Proof.LibRowOps
import Idealize.ShloMosaic.Lib.ValueIdx
import Idealize.ShloMosaic.Lib.ValueLayout
import Idealize.ShloMosaic.PureOps.Ideal.Laws
noncomputable section
namespace Cert.ReferenceIdeal.RefRow
open Cert.ReferenceIdeal Cert.ReferenceIdeal.Gen Idealize.ShloMosaic Idealize.ShloMosaic.ValueIdx Cert.RowNet Cert.LibRowOps

/-! ## The operations that are not pointwise, read at an index -/

/-- the host's quotient at an index is the quotient of the entries -/
theorem hdivf_apply {s : Shape} {φ : FTy} (a b : FVec Ideal s φ) (i : s.Idx) :
    Host.divf a b i = Ideal.div (a i) (b i) := rfl

/-- the host's square root at an index is the square root of the entry -/
theorem hsqrt_apply {s : Shape} {φ : FTy} (a : FVec Ideal s φ) (i : s.Idx) :
    Host.sqrt a i = Ideal.sqrt (a i) := rfl

/-- the row sums of a [262144, 256] array: the initial value plus the sum of the row's entries -/
theorem rowsum256 (v : FVec Ideal S262144x256 .f32) (init : FVec Ideal S_ .f32) (p : Fin 262144) :
    Host.reduceAdd v init reducesTo_S262144x256_S262144_d1 h_S_ (ix1 p) = init ix0 + ∑ k : Fin 256, v (ix2 p k) := by
  have h := hostReduceAdd_row_apply (a := 262144) (b := 256) reducesTo_S262144x256_S262144_d1 (by decide) v
    (init (Shape.Idx.first h_S_)) p
  exact h.trans (by rw [eq_ix0 (Shape.Idx.first h_S_)])

/-- the row sums of a [262144, 512] array: the initial value plus the sum of the row's entries -/
theorem rowsum512 (v : FVec Ideal S262144x512 .f32) (init : FVec Ideal S_ .f32) (p : Fin 262144) :
    Host.reduceAdd v init reducesTo_S262144x512_S262144_d1 h_S_ (ix1 p) = init ix0 + ∑ k : Fin 512, v (ix2 p k) := by
  have h := hostReduceAdd_row_apply (a := 262144) (b := 512) reducesTo_S262144x512_S262144_d1 (by decide) v
    (init (Shape.Idx.first h_S_)) p
  exact h.trans (by rw [eq_ix0 (Shape.Idx.first h_S_)])

/-- the product of a [262144, 256] by a [256, 512] array at (p, n): the sum over the shared axis -/
theorem dg1 (l : FVec Ideal S262144x256 .f32) (r : FVec Ideal S256x512 .f32) (p : Fin 262144) (n : Fin 512) :
    Host.dotGeneral dot_S262144x256_S256x512_S262144x512_1_0_0_1_n_n none l r (ix2 p n)
      = ∑ k : Fin 256, l (ix2 p k) * r (ix2 k n) :=
  (Ideal.dotGeneral_apply _ none _ l r (ix2 p n)).trans
    (sum_contr dot_S262144x256_S256x512_S262144x512_1_0_0_1_n_n rfl rfl (fun _ _ => rfl) (fun _ _ => rfl)
      (fun _ _ => rfl) (fun _ _ => rfl) l r p n)

/-- the product of a [262144, 512] by a [512, 256] array at (p, j): the sum over the shared axis -/
theorem dg2 (l : FVec Ideal S262144x512 .f32) (r : FVec Ideal S512x256 .f32) (p : Fin 262144) (j : Fin 256) :
    Host.dotGeneral dot_S262144x512_S512x256_S262144x256_1_0_0_1_n_n none l r (ix2 p j)
      = ∑ n : Fin 512, l (ix2 p n) * r (ix2 n j) :=
  (Ideal.dotGeneral_apply _ none _ l r (ix2 p j)).trans
    (sum_contr dot_S262144x512_S512x256_S262144x256_1_0_0_1_n_n rfl rfl (fun _ _ => rfl) (fun _ _ => rfl)
      (fun _ _ => rfl) (fun _ _ => rfl) l r p j)

/-! ## Width 256, stage by stage -/

theorem mean256_apply (x : FVec Ideal S262144x256 .f32) (p : Fin 262144) :
    RefTerm.mean256 (F := Ideal) x (ix2 p (0 : Fin 1))
      = Ideal.div (∑ k : Fin 256, x (ix2 p k)) (Ideal.ofBits .f32 0x43800000#32) := by
  unfold RefTerm.mean256
  rw [hdivf_apply, broadcastInDim_a_a1_apply, broadcastInDim_scalar_apply, constant_apply, rowsum256, constant_apply,
    Ideal.ofBits_zero_f32, zero_add]

theorem cen256_apply (x : FVec Ideal S262144x256 .f32) (p : Fin 262144) (k : Fin 256) :
    RefTerm.cen256 (F := Ideal) x (ix2 p k)
      = x (ix2 p k) - Ideal.div (∑ i : Fin 256, x (ix2 p i)) (Ideal.ofBits .f32 0x43800000#32) := by
  unfold RefTerm.cen256
  rw [subf_apply, broadcastInDim_a1_ab_apply, mean256_apply]

theorem std256_apply (x : FVec Ideal S262144x256 .f32) (p : Fin 262144) :
    RefTerm.std256 (F := Ideal) x (ix2 p (0 : Fin 1))
      = Ideal.sqrt (Ideal.div (∑ i : Fin 256,
            (x (ix2 p i) - Ideal.div (∑ i : Fin 256, x (ix2 p i)) (Ideal.ofBits .f32 0x43800000#32))
              * (x (ix2 p i) - Ideal.div (∑ i : Fin 256, x (ix2 p i)) (Ideal.ofBits .f32 0x43800000#32)))
          (Ideal.ofBits .f32 0x43800000#32) + Ideal.ofBits .f32 0x3727C5AC#32) := by
  unfold RefTerm.std256
  rw [hsqrt_apply, addf_apply, hdivf_apply, broadcastInDim_a_a1_apply, broadcastInDim_scalar_apply,
    broadcastInDim_scalar_apply, constant_apply, constant_apply, rowsum256, constant_apply, Ideal.ofBits_zero_f32, zero_add]
  simp only [mulf_apply, cen256_apply]

theorem ln256_apply (x : FVec Ideal S262144x256 .f32) (w b : FVec Ideal S1x256 .f32) (p : Fin 262144) (k : Fin 256) :
    RefTerm.ln256 (F := Ideal) x w b (ix2 p k)
      = lnTwoPass (Ideal.ofBits .f32 0x43800000#32) (Ideal.ofBits .f32 0x3727C5AC#32)
          (fun k : Fin 256 => x (ix2 p k)) (fun k : Fin 256 => w (ix2 (0 : Fin 1) k))
          (fun k : Fin 256 => b (ix2 (0 : Fin 1) k)) k := by
  unfold RefTerm.ln256
  rw [addf_apply, mulf_apply, hdivf_apply, broadcastInDim_a1_ab_apply, broadcastInDim_1b_ab_apply,
    broadcastInDim_1b_ab_apply, cen256_apply, std256_apply]
  rfl

theorem leaky256_apply (h : FVec Ideal S262144x256 .f32) (p : Fin 262144) (k : Fin 256) :
    RefTerm.leaky256 (F := Ideal) h (ix2 p k) = leaky (Ideal.ofBits .f32 0x3C23D70A#32) (h (ix2 p k)) := by
  unfold RefTerm.leaky256
  rw [select_apply, cmpf_apply, mulf_apply, broadcastInDim_scalar_apply, broadcastInDim_scalar_apply, constant_apply,
    constant_apply, select_oge_zero]
  rfl

theorem lin1_apply (h : FVec Ideal S262144x256 .f32) (We : FVec Ideal S512x256 .f32) (be : FVec Ideal S512 .f32)
    (p : Fin 262144) (n : Fin 512) :
    RefTerm.lin1 (F := Ideal) h We be (ix2 p n)
      = lin (fun k : Fin 256 => h (ix2 p k)) (fun (n : Fin 512) (k : Fin 256) => We (ix2 n k))
          (fun n : Fin 512 => be (ix1 n)) n := by
  unfold RefTerm.lin1 lin
  rw [addf_apply, dg1, broadcastInDim_1b_ab_apply, broadcastInDim_b_1b_apply]
  congr 1
  exact Finset.sum_congr rfl fun k _ => by rw [transpose_ix2_apply]

/-! ## Width 512, stage by stage -/

theorem mean512_apply (x : FVec Ideal S262144x512 .f32) (p : Fin 262144) :
    RefTerm.mean512 (F := Ideal) x (ix2 p (0 : Fin 1))
      = Ideal.div (∑ k : Fin 512, x (ix2 p k)) (Ideal.ofBits .f32 0x44000000#32) := by
  unfold RefTerm.mean512
  rw [hdivf_apply, broadcastInDim_a_a1_apply, broadcastInDim_scalar_apply, constant_apply, rowsum512, constant_apply,
    Ideal.ofBits_zero_f32, zero_add]

theorem cen512_apply (x : FVec Ideal S262144x512 .f32) (p : Fin 262144) (k : Fin 512) :
    RefTerm.cen512 (F := Ideal) x (ix2 p k)
      = x (ix2 p k) - Ideal.div (∑ i : Fin 512, x (ix2 p i)) (Ideal.ofBits .f32 0x44000000#32) := by
  unfold RefTerm.cen512
  rw [subf_apply, broadcastInDim_a1_ab_apply, mean512_apply]

theorem std512_apply (x : FVec Ideal S262144x512 .f32) (p : Fin 262144) :
    RefTerm.std512 (F := Ideal) x (ix2 p (0 : Fin 1))
      = Ideal.sqrt (Ideal.div (∑ i : Fin 512,
            (x (ix2 p i) - Ideal.div (∑ i : Fin 512, x (ix2 p i)) (Ideal.ofBits .f32 0x44000000#32))
              * (x (ix2 p i) - Ideal.div (∑ i : Fin 512, x (ix2 p i)) (Ideal.ofBits .f32 0x44000000#32)))
          (Ideal.ofBits .f32 0x44000000#32) + Ideal.ofBits .f32 0x3727C5AC#32) := by
  unfold RefTerm.std512
  rw [hsqrt_apply, addf_apply, hdivf_apply, broadcastInDim_a_a1_apply, broadcastInDim_scalar_apply,
    broadcastInDim_scalar_apply, constant_apply, constant_apply, rowsum512, constant_apply, Ideal.ofBits_zero_f32, zero_add]
  simp only [mulf_apply, cen512_apply]

theorem ln512_apply (x : FVec Ideal S262144x512 .f32) (w b : FVec Ideal S1x512 .f32) (p : Fin 262144) (k : Fin 512) :
    RefTerm.ln512 (F := Ideal) x w b (ix2 p k)
      = lnTwoPass (Ideal.ofBits .f32 0x44000000#32) (Ideal.ofBits .f32 0x3727C5AC#32)
          (fun k : Fin 512 => x (ix2 p k)) (fun k : Fin 512 => w (ix2 (0 : Fin 1) k))
          (fun k : Fin 512 => b (ix2 (0 : Fin 1) k)) k := by
  unfold RefTerm.ln512
  rw [addf_apply, mulf_apply, hdivf_apply, broadcastInDim_a1_ab_apply, broadcastInDim_1b_ab_apply,
    broadcastInDim_1b_ab_apply, cen512_apply, std512_apply]
  rfl

theorem leaky512_apply (h : FVec Ideal S262144x512 .f32) (p : Fin 262144) (k : Fin 512) :
    RefTerm.leaky512 (F := Ideal) h (ix2 p k) = leaky (Ideal.ofBits .f32 0x3C23D70A#32) (h (ix2 p k)) := by
  unfold RefTerm.leaky512
  rw [select_apply, cmpf_apply, mulf_apply, broadcastInDim_scalar_apply, broadcastInDim_scalar_apply, constant_apply,
    constant_apply, select_oge_zero]
  rfl

theorem lin2_apply (h : FVec Ideal S262144x512 .f32) (Ws : FVec Ideal S256x512 .f32) (bs : FVec Ideal S256 .f32)
    (p : Fin 262144) (j : Fin 256) :
    RefTerm.lin2 (F := Ideal) h Ws bs (ix2 p j)
      = lin (fun n : Fin 512 => h (ix2 p n)) (fun (j : Fin 256) (n : Fin 512) => Ws (ix2 j n))
          (fun j : Fin 256 => bs (ix1 j)) j := by
  unfold RefTerm.lin2 lin
  rw [addf_apply, dg2, broadcastInDim_1b_ab_apply, broadcastInDim_b_1b_apply]
  congr 1
  exact Finset.sum_congr rfl fun n _ => by rw [transpose_ix2_apply]

/-! ## The whole reference at one index -/

theorem out_apply (x : FVec Ideal S262144x256 .f32) (w1 b1 : FVec Ideal S1x256 .f32) (We : FVec Ideal S512x256 .f32) (be : FVec Ideal S512 .f32)
    (w2 b2 : FVec Ideal S1x512 .f32) (Ws : FVec Ideal S256x512 .f32) (bs : FVec Ideal S256 .f32) (r : Fin 262144) (j : Fin 256) :
    RefTerm.out (F := Ideal) x w1 b1 We be w2 b2 Ws bs (ix2 r j)
      = netTwoPass (Ideal.ofBits .f32 0x43800000#32) (Ideal.ofBits .f32 0x44000000#32) (Ideal.ofBits .f32 0x3727C5AC#32) (Ideal.ofBits .f32 0x3C23D70A#32)
          (fun k : Fin 256 => x (ix2 r k)) (fun k : Fin 256 => w1 (ix2 (0 : Fin 1) k)) (fun k : Fin 256 => b1 (ix2 (0 : Fin 1) k))
          (fun (n : Fin 512) (k : Fin 256) => We (ix2 n k)) (fun n : Fin 512 => be (ix1 n))
          (fun n : Fin 512 => w2 (ix2 (0 : Fin 1) n)) (fun n : Fin 512 => b2 (ix2 (0 : Fin 1) n))
          (fun (j : Fin 256) (n : Fin 512) => Ws (ix2 j n)) (fun j : Fin 256 => bs (ix1 j)) j := by
  unfold RefTerm.out netTwoPass
  simp only [addf_apply, lin2_apply, leaky512_apply, ln512_apply, lin1_apply, leaky256_apply, ln256_apply]

end Cert.ReferenceIdeal.RefRow
-- ==== Proof.RefValue.lean ====
/-
  The reference's result array as one function of the argument arrays: its run ends at the composed term of its
  operations, and that term, read at every index, is the two-pass row network of the index's row.
-/
import proofs.«114084_j39616778338828_2_alg».proof.Proof.RefRun
import proofs.«114084_j39616778338828_2_alg».proof.Proof.RefRow
import proofs.«114084_j39616778338828_2_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Spec

/-- The composed term is the two-pass array: entry `(r, j)` is the two-pass row network of row `r` at column `j`. -/
theorem out_eq_twoPass (x : FVec Ideal S262144x256 .f32) (w1 b1 : FVec Ideal S1x256 .f32) (We : FVec Ideal S512x256 .f32)
    (be : FVec Ideal S512 .f32) (w2 b2 : FVec Ideal S1x512 .f32) (Ws : FVec Ideal S256x512 .f32) (bs : FVec Ideal S256 .f32) :
    RefTerm.out (F := Ideal) x w1 b1 We be w2 b2 Ws bs = twoPass x w1 b1 We be w2 b2 Ws bs := by
  funext i
  obtain ⟨r, j, rfl⟩ : ∃ (r : Fin 262144) (j : Fin 256), i = ix2 r j := ⟨rowOf i, colOf i, eq_ix2_rowOf_colOf i⟩
  exact RefRow.out_apply x w1 b1 We be w2 b2 Ws bs r j

/-- Every weakly fair execution of the reference ends with the result array the two-pass array of the arguments,
    and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
          = twoPass (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (out_eq_twoPass _ _ _ _ _ _ _ _ _), (h c).2⟩)
    (RefRun.run (F := Ideal) m ρ)

end Cert.ReferenceIdeal.RefValue

end
-- ==== Proof.FiniteInputs.lean ====
import proofs.«114084_j39616778338828_2_alg».proof.Proof.Gen.Pre_finite_inputs
import proofs.«114084_j39616778338828_2_alg».proof.Proof.RowMath
import Idealize.ShloMosaic.Lib.ValueIdx
import Idealize.ShloMosaic.Lib.ReduceAll
import Idealize.ShloMosaic.PureOps.Ideal.Laws
noncomputable section
namespace Cert.FiniteInputs
open Idealize.ShloMosaic Idealize.ShloMosaic.ValueIdx
open Cert.Pre_finite_inputs

/-- the rank-0 shape has one index -/
instance : Subsingleton S_.Idx := ⟨fun _ _ => funext fun d => d.elim0⟩

/-- the bit pattern of plus infinity denotes the top element of the extended reals -/
theorem ofBits_inf : Ideal.ofBits .f32 0x7F800000#32 = ⊤ := by simp [Ideal.ofBits, Ideal.ieee]

/-- an extended real whose absolute value max x (−x) lies below plus infinity is a real number:
    at ⊥ the negation is ⊤ and at ⊤ the value itself is, so neither maximum is below ⊤ -/
theorem isReal_of_abs_lt_top (x : EReal) (h : max x (-x) < ⊤) : Cert.RowNet.IsReal x := by
  induction x using EReal.rec with
  | bot => simp at h
  | coe r => exact ⟨r, rfl⟩
  | top => simp at h

/-- the comparison |x| < +∞ answering 1 says that x is a real number -/
theorem isReal_of_cmp (x : Ideal .f32)
    (h : FloatOps.cmpf .olt (FloatOps.hostAbsf x) (FloatOps.ofBits (F := Ideal) .f32 0x7F800000#32) = 1#1) :
    Cert.RowNet.IsReal x := by
  have h' : Ideal.cmp .olt (max (x : EReal) (-(x : EReal))) (Ideal.ofBits .f32 0x7F800000#32) = 1#1 := h
  rw [ofBits_inf] at h'
  unfold Ideal.cmp at h'
  apply isReal_of_abs_lt_top
  by_contra hn
  simp [hn] at h'

/-- if the conjunction over a whole array of the comparisons |x i| < +∞ is 1, every entry is a real number -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, Cert.RowNet.IsReal (x i) := by
  intro i
  have hi := Host.reduce_andi_all _ _ hr hu ix0 e i
  exact isReal_of_cmp (x i) hi

theorem real_of_fn (x0 : FVec Ideal S262144x256 .f32) (x1 : IVec S128 32) (x2 x3 : FVec Ideal S1x256 .f32)
    (x4 : FVec Ideal S512x256 .f32) (x5 : FVec Ideal S512 .f32) (x6 x7 : FVec Ideal S1x512 .f32)
    (x8 : FVec Ideal S256x512 .f32) (x9 : FVec Ideal S256 .f32)
    (h : Cert.Pre_finite_inputs.fn (F := Ideal) x0 x1 x2 x3 x4 x5 x6 x7 x8 x9 = fun _ => 1#1) :
    (∀ i, Cert.RowNet.IsReal (x0 i)) ∧ (∀ i, Cert.RowNet.IsReal (x2 i)) ∧ (∀ i, Cert.RowNet.IsReal (x3 i))
      ∧ (∀ i, Cert.RowNet.IsReal (x4 i)) ∧ (∀ i, Cert.RowNet.IsReal (x5 i)) := by
  have h0 := congrFun h ix0
  dsimp only [Cert.Pre_finite_inputs.fn, Cert.Pre_finite_inputs.fn_part1, Cert.Pre_finite_inputs.fn_part2] at h0
  obtain ⟨h8, e9⟩ := IntOp.andi_eq_one.1 h0
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨real_of_all x0 _ _ _ e0, real_of_all x2 _ _ _ e2, real_of_all x3 _ _ _ e3,
    real_of_all x4 _ _ _ e4, real_of_all x5 _ _ _ e5⟩

end Cert.FiniteInputs
-- ==== Proof.lean ====
/-
  The certificate: a residual block — layer norm, leaky ReLU, linear layer, twice, plus the input — computed by one
  fused kernel tiled over blocks of 2048 rows, against its plain array program.

  Both programs compute, for every row of the input, the same network of that row. They differ in two places only,
  inside each layer norm: the kernel takes the variance as the mean of squares minus the squared mean and multiplies
  the centred entry by the reciprocal square root of (variance + ε); the reference takes the mean of squared deviations
  and divides by the square root. Over the real numbers the two variances are one number, it is not negative, and
  ε > 0, so the two normalized entries agree; on the extended reals this needs the entries of a row to be real, which
  the precondition gives for the input and the first layer's parameters, and which the first block then passes on to
  the second layer norm's rows. The literal 256 (512) both programs divide the row sums by is the row's length.

  The frames of the two kernel programs are the generated ones; the reference's frame is its run with the result
  forgotten; nothing was rewritten by the ideal pass, so `preserves` is trivial.
-/
import proofs.«114084_j39616778338828_2_alg».proof.Defs
import proofs.«114084_j39616778338828_2_alg».proof.Proof.Gen.Kernel
import proofs.«114084_j39616778338828_2_alg».proof.Proof.Gen.Kernel.Skeleton
import proofs.«114084_j39616778338828_2_alg».proof.Proof.Gen.Kernel.Launch
import proofs.«114084_j39616778338828_2_alg».proof.Proof.Gen.Kernel.Points
import proofs.«114084_j39616778338828_2_alg».proof.Proof.Gen.Kernel.Frame
import proofs.«114084_j39616778338828_2_alg».proof.Proof.Gen.KernelIdeal
import proofs.«114084_j39616778338828_2_alg».proof.Proof.Gen.KernelIdeal.Skeleton
import proofs.«114084_j39616778338828_2_alg».proof.Proof.Gen.KernelIdeal.Launch
import proofs.«114084_j39616778338828_2_alg».proof.Proof.Gen.KernelIdeal.Points
import proofs.«114084_j39616778338828_2_alg».proof.Proof.Gen.KernelIdeal.Frame
import proofs.«114084_j39616778338828_2_alg».proof.Proof.Gen.KernelIdeal.Value
import proofs.«114084_j39616778338828_2_alg».proof.Proof.Gen.ReferenceIdeal
import proofs.«114084_j39616778338828_2_alg».proof.Proof.Gen.Pre_finite_inputs
import proofs.«114084_j39616778338828_2_alg».proof.Proof.KerArray
import proofs.«114084_j39616778338828_2_alg».proof.Proof.RefValue
import proofs.«114084_j39616778338828_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments the kernel's program ends at the one-pass array of the arguments and
    the reference at the two-pass array; the precondition makes the input and the first layer's parameters real, so
    the two arrays are one. -/
theorem algebraic : Cert.algebraic_KernelIdeal_ReferenceIdeal := by
  intro m ρ m' ρ' hpre hagree
  refine ⟨_, Cert.KernelIdeal.KerArray.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9⟩ := hagree c
  rw [a0, a2, a3, a4, a5, a6, a7, a8, a9]
  obtain ⟨h0, h2, h3, h4, h5⟩ := Cert.FiniteInputs.real_of_fn _ _ _ _ _ _ _ _ _ _ (hpre c)
  exact (Cert.Spec.onePass_eq_twoPass _ _ _ _ _ _ _ _ _ h0 h2 h3 h4 h5).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
